-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S10000x128 : Shape := ⟨2, ![10000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S10000x40 : Shape := ⟨2, ![10000, 40]⟩
abbrev S1600000x40 : Shape := ⟨2, ![1600000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 41
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S1x128, .f32⟩
  | .hbm, ⟨25, _⟩ => ⟨S100000x40, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x40, .f32⟩
  | .hbm, ⟨35, _⟩ => ⟨S_, .f32⟩
  | .hbm, ⟨36, _⟩ => ⟨S100000x40, .f32⟩
  | .hbm, ⟨37, _⟩ => ⟨S1600000x1, .i32⟩
  | .hbm, ⟨38, _⟩ => ⟨S100000x40, .f32⟩
  | .hbm, ⟨39, _⟩ => ⟨S1x40, .f32⟩
  | .hbm, ⟨40, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x40, .f32⟩
  | .local _ .vmem, ⟨9, _⟩ => ⟨S10000x40, .f32⟩
  | .local _ .vmem, ⟨10, _⟩ => ⟨S10000x40, .f32⟩
  | .local _ .vmem, ⟨11, _⟩ => ⟨S10000x40, .f32⟩
  | .local _ .vmem, ⟨12, _⟩ => ⟨S10000x40, .f32⟩
  | .local _ .vmem, ⟨13, _⟩ => ⟨S1x40, .f32⟩
  | .local _ .vmem, ⟨14, _⟩ => ⟨S10000x40, .f32⟩
  | .local _ .vmem, ⟨15, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x40_S128x40_0_0 : ∀ a, (![0, 0] : Fin 2 → Nat) a + S128x40.size a ≤ S128x40.size a
  h_S128x40 : 0 < S128x40.numel
  inb_S10000x40_S10000x40_0_0 : ∀ a, (![0, 0] : Fin 2 → Nat) a + S10000x40.size a ≤ S10000x40.size a
  h_S10000x40 : 0 < S10000x40.numel
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x40_S10000x40_1_0_0_1_n_n_wf : DotDims.WF S10000x128 S128x40 S10000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x40.size a ≤ S100000x40.size a
  hwx1_3 : ∀ i : grid1.Coords, EltTy.bits .f32 = 32 ∨ (Rect.block (s := S100000x40) S10000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S10000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 62
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S_, .f32⟩
  | .hbm, ⟨28, _⟩ => ⟨S100000x128, .f32⟩
  | .hbm, ⟨29, _⟩ => ⟨S100000x128, .f32⟩
  | .hbm, ⟨30, _⟩ => ⟨S100000x40, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x40, .f32⟩
  | .hbm, ⟨40, _⟩ => ⟨S_, .f32⟩
  | .hbm, ⟨41, _⟩ => ⟨S100000x40, .f32⟩
  | .hbm, ⟨42, _⟩ => ⟨S1600000x1, .i32⟩
  | .hbm, ⟨43, _⟩ => ⟨S100000x40, .f32⟩
  | .hbm, ⟨44, _⟩ => ⟨S1x40, .f32⟩
  | .hbm, ⟨45, _⟩ => ⟨S100000x40, .f32⟩
  | .hbm, ⟨46, _⟩ => ⟨S100000x40, .f32⟩
  | .hbm, ⟨47, _⟩ => ⟨S_, .f32⟩
  | .hbm, ⟨48, _⟩ => ⟨S100000, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S100000x1, .f32⟩
  | .hbm, ⟨53, _⟩ => ⟨S100000x40, .f32⟩
  | .hbm, ⟨54, _⟩ => ⟨S100000x40, .f32⟩
  | .hbm, ⟨55, _⟩ => ⟨S100000x40, .f32⟩
  | .hbm, ⟨56, _⟩ => ⟨S_, .f32⟩
  | .hbm, ⟨57, _⟩ => ⟨S100000, .f32⟩
  | .hbm, ⟨58, _⟩ => ⟨S100000x1, .f32⟩
  | .hbm, ⟨59, _⟩ => ⟨S100000x1, .f32⟩
  | .hbm, ⟨60, _⟩ => ⟨S100000x40, .f32⟩
  | .hbm, ⟨61, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call1_cst : Ref sig .tc := ⟨.hbm, 47, rfl⟩
abbrev main_call1_v0 : Ref sig .tc := ⟨.hbm, 48, rfl⟩
abbrev main_call1_cst_0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_cst_1 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_v33 : Ref sig .tc := ⟨.hbm, 61, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The idealized kernel's run with its result named. The program is three pallas_calls among stretches of host
  operations; its frame certificate runs it segment by segment and keeps, at every boundary, the contents of every
  buffer as a fold over the launch memory. Here the same run is stated once more with one more conjunct: after the
  run the result buffer holds the last boundary's contents at that buffer. The later modules read that fold back,
  region by region, to a function of the argument arrays.
-/
import proofs.«173222_j37512244363443_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault; the result buffer then holds the
    last boundary's contents, and the six argument arrays are as launched. -/
theorem run_named : θ_run defs (onTc (τ := τ) (main (F := F))) ⟨m, fun _ => 0, ρ⟩ (fun r => ∀ c : Dev nD,
      r.2.mem ((c.tc : Thread nD τ).loc main_v28) = W6 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v28 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.KernelRun

end
-- ==== Proof.LibTwoBlocks.lean ====
/-
  Three readings, at an entry, that come up when one matrix product over a joined axis is compared with two products
  over its parts, for any sizes.

  * A sum over `n = a + b` indices is the sum over the first `a` plus the sum over the last `b` (in any commutative
    monoid: only the grouping changes).
  * An `M × K` by `K × N` matrix product accumulated into zero reads, at `(p, q)`, the sum over `c` of
    `A (p, c) * B (c, q)`.
  * Two matrices with the same number of columns stacked one above the other read, at `(i, j)`, the upper one at
    `(i, j)` for a row of the upper piece and the lower one at `(i - a₁, j)` otherwise.
-/
import Mathlib.Algebra.BigOperators.Fin
import Idealize.ShloMosaic.Lib.Pipeline.Value
import Idealize.ShloMosaic.Lib.ValueIdx
import Idealize.ShloMosaic.PureOps.Ideal.Laws

noncomputable section

open scoped BigOperators

namespace Cert.Lib.TwoBlocks

open Idealize.ShloMosaic Idealize.ShloMosaic.ValueIdx

/-- A sum over `a + b` indices as the sum over the first `a` plus the sum over the last `b`. -/
theorem sum_two_blocks {M : Type*} [AddCommMonoid M] {a b n : ℕ} (hn : a + b = n) (f : Fin n → M) :
    ∑ k, f k = ∑ k : Fin a, f ⟨k.val, by have := k.isLt; omega⟩ + ∑ k : Fin b, f ⟨a + k.val, by have := k.isLt; omega⟩ := by
  subst hn
  rw [Fin.sum_univ_add]
  exact congrArg₂ (· + ·) (Finset.sum_congr rfl fun k _ => congrArg f (Fin.ext rfl))
    (Finset.sum_congr rfl fun k _ => congrArg f (Fin.ext rfl))

/-- An `M × K` by `K × N` product into the zero accumulator reads, at `(p, q)`, the sum over the shared axis. The
    dimension numbers are any that contract the left operand's columns with the right operand's rows and batch
    nothing (`hD`). -/
theorem plain_matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    matmul D prec A B (constant ⟨2, ![M, N]⟩ .f32 0x00000000#32) (ix2 p q) = ∑ c : Fin K, A (ix2 p c) * B (ix2 c q) := by
  subst hD
  show FloatOps.matmul (DotDims.plain M K N) prec A B _ (ix2 p q) = _
  rw [Ideal.matmul_constant_zero_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

variable {α : Type}

/-- A row of the upper piece: the stack at `(i, j)` with `i = k < a₁` is the upper piece at `(k, j)`. -/
theorem concat_rows_upper {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₁) (hk : k.val = i.val) :
    concatenate ⟨2, ![n, b]⟩ 0 [⟨⟨2, ![a₁, b]⟩, x₁⟩, ⟨⟨2, ![a₂, b]⟩, x₂⟩] h (ix2 i j) = x₁ (ix2 k j) :=
  concatenate_pair_apply_left (t := ⟨2, ![n, b]⟩) 0 x₁ x₂ h (ix2 i j) rfl (ix2 k j) (fun ax => by
    match ax with
    | ⟨0, _⟩ => exact hk
    | ⟨1, _⟩ => rfl)

/-- A row of the lower piece: the stack at `(i, j)` with `i = a₁ + k` is the lower piece at `(k, j)`. -/
theorem concat_rows_lower {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₂) (hk : a₁ + k.val = i.val) :
    concatenate ⟨2, ![n, b]⟩ 0 [⟨⟨2, ![a₁, b]⟩, x₁⟩, ⟨⟨2, ![a₂, b]⟩, x₂⟩] h (ix2 i j) = x₂ (ix2 k j) :=
  concatenate_pair_apply_right (t := ⟨2, ![n, b]⟩) 0 x₁ x₂ h (ix2 i j) rfl rfl (ix2 k j) (fun ax hb => by
    match ax with
    | ⟨0, _⟩ => exact absurd rfl hb
    | ⟨1, _⟩ => rfl) (by
    show k.val + a₁ = i.val
    omega)

end Cert.Lib.TwoBlocks

end
-- ==== Proof.LibPlainDot.lean ====
/-
  The host's plain matrix product read at an entry, for any sizes.

  An `M × K` by `K × N` product taken by the host, with no batch axis and the left operand's columns contracted with
  the right operand's rows, reads at `(p, q)` the sum over the shared index `c` of `A (p, c) * B (c, q)`: over the
  extended reals the host's product is the textbook contraction, whatever its precision attribute.
-/
import Idealize.ShloMosaic.Lib.Pipeline.Value
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The host's `M × K` by `K × N` product reads, at `(p, q)`, the sum over the shared axis. The dimension numbers are
    any that contract the left operand's columns with the right operand's rows and batch nothing (`hD`). -/
theorem plain_dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    Host.dotGeneral D prec A B (ix2 p q) = ∑ c : Fin K, A (ix2 p c) * B (ix2 c q) := by
  subst hD
  simp only [Host.dotGeneral]
  rw [Ideal.dotGeneral_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

end Cert.Lib.PlainDot

end
-- ==== Proof.ProductRegion.lean ====
/-
  The first pallas_call: every grid point multiplies a block of 10000 rows of its left operand by the whole
  128 x 128 right operand, into a zero accumulator (the operands' change of float format is the identity over the
  extended reals). Read entry by entry, the block a point writes back is rows 10000 t ... 10000 t + 9999 of the matrix
  product of the two operand arrays; the ten blocks tile the 100000 x 128 output, so after the call the output array is
  that product: the reference's first dot_general of the same two arrays.
-/
import proofs.«173222_j37512244363443_1_alg».proof.Proof.Gen.KernelIdeal.Frame
import proofs.«173222_j37512244363443_1_alg».proof.Proof.ReadP
import proofs.«173222_j37512244363443_1_alg».proof.Proof.LibTwoBlocks
import proofs.«173222_j37512244363443_1_alg».proof.Proof.LibPlainDot
import Idealize.ShloMosaic.Lib.Pipeline.Value
import Idealize.ShloMosaic.Lib.ValueIdx
import Idealize.ShloMosaic.PureOps.Ideal.Laws

noncomputable section

namespace Cert.KernelIdeal.ProductRegion

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- The body's stored value at row `p`, column `q` of its block: the inner product of row `p` of the left block with
    column `q` of the right operand. -/
theorem pay0_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  exact Cert.Lib.TwoBlocks.plain_matmul_zero_apply dot_S10000x128_S128x128_S10000x128_1_0_0_1_n_n rfl none _ _ p q

/-- The reference's first product at row `r`, column `q`: the same inner product over whole arrays. -/
theorem ref0_apply (x0 : (⟨Cert.ReferenceIdeal.S100000x128, .f32⟩ : BufTy).Contents (Elt Ideal)) (x2 : (⟨Cert.ReferenceIdeal.S128x128, .f32⟩ : BufTy).Contents (Elt Ideal)) (r : Fin 100000) (q : Fin 128) :
    Cert.ReferenceIdeal.ReadP.val_main_v4 (F := Ideal) x0 x2 (ix2 r q) = ∑ k : Fin 128, x0 (ix2 r k) * x2 (ix2 k q) := by
  unfold Cert.ReferenceIdeal.ReadP.val_main_v4
  exact Cert.Lib.PlainDot.plain_dotGeneral_apply Cert.ReferenceIdeal.dot_S100000x128_S128x128_S100000x128_1_0_0_1_n_n rfl none _ _ r q

variable (V : (c : Dev nD) → (b : Ref sig .tc) → Buf (Elt Ideal) ((c : Thread nD τ).loc b))

/-- The zero offset of a whole-buffer access. -/
theorem hz : (![0, 0] : Fin 2 → Nat) = fun _ => 0 := funext fun a => by fin_cases a <;> rfl

/-- Block indices over the grid: the row-blocked windows are at block row `t`, the whole right operand at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the product of the two operand arrays as the call finds them. -/
theorem flushed0 (c : Dev nD) (t : Fin cfg0.N) :
    (dat0 V c).flushed 2 t = ((cfg0.win 2).blk t).view.read (Elt Ideal) (Cert.ReferenceIdeal.ReadP.val_main_v4 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  funext j
  obtain ⟨p, q, rfl⟩ : ∃ (p : Fin 10000) (q : Fin 128), j = ix2 p q := ⟨j 0, j 1, eq_ix2 j⟩
  have ht : t.val < 10 := t.isLt
  obtain ⟨e0, e1, e2, e3, e4, e5⟩ := idx_facts0 t
  show k0_pay1 (F := Ideal) (iblk0 V c 0 t) (iblk0 V c 1 t) (ix2 p q)
    = Cert.ReferenceIdeal.ReadP.val_main_v4 (F := Ideal) (V c main_arg0) (V c main_arg2) (((cfg0.win 2).blk t).view.emb (ix2 p q))
  have hr : t.val * 10000 + p.val < 100000 := by have := p.isLt; omega
  have hemb : ((cfg0.win 2).blk t).view.emb (ix2 p q) = ix2 (⟨t.val * 10000 + p.val, hr⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  rw [hemb, pay0_apply, ref0_apply]
  refine Finset.sum_congr rfl fun k _ => ?_
  have h0 : iblk0 V c 0 t (ix2 p k) = V c main_arg0 (ix2 (⟨t.val * 10000 + p.val, hr⟩ : Fin 100000) k) := by
    show V c main_arg0 (((cfg0.win 0).blk t).view.emb (ix2 p k)) = _
    refine congrArg _ ?_
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have h1 : iblk0 V c 1 t (ix2 k q) = V c main_arg2 (ix2 k q) := by
    show V c main_arg2 (((cfg0.win 1).blk t).view.emb (ix2 k q)) = _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [h0, h1]

/-- An index lies in point `t`'s output block iff each coordinate lies in the block's range. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v4).slice (win0_2.rect t)).set ↔ _
  rw [View.set_slice_whole, Rect.mem_set_unit]
  exact Iff.rfl

/-- Every index of the output lies in the block of the point numbered by its row divided by 10000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  have hlt : (i 0).val / 10000 < grid0.N := by omega
  obtain ⟨e0, e1, e2, e3, e4, e5⟩ := idx_facts0 ⟨(i 0).val / 10000, hlt⟩
  refine ⟨⟨(i 0).val / 10000, hlt⟩, flush0_2 _, ?_⟩
  rw [mem_blk0]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    have e4' : win0_2.index ⟨(i 0).val / 10000, hlt⟩ (0 : Fin 2) = (i 0).val / 10000 := e4
    omega
  | ⟨1, _⟩ =>
    show win0_2.index ⟨(i 0).val / 10000, hlt⟩ (1 : Fin 2) * 128 ≤ (i 1).val ∧ (i 1).val < win0_2.index ⟨(i 0).val / 10000, hlt⟩ (1 : Fin 2) * 128 + 128
    omega

/-- After the first pallas_call its output array holds the matrix product of its two operand arrays as the call found them. -/
theorem final0 (c : Dev nD) :
    (dat0 V c).arrAt 2 cfg0.N = Cert.ReferenceIdeal.ReadP.val_main_v4 (F := Ideal) (V c main_arg0) (V c main_arg2) :=
  (dat0 V c).arrAt_eq_of_cover 2 _ (fun t _ => flushed0 V c t) cover0

end Cert.KernelIdeal.ProductRegion
end
-- ==== Proof.HiddenRegion.lean ====
/-
  The second pallas_call: every grid point adds the bias row to a block of 10000 rows of the first aggregate, takes
  the maximum with zero, and multiplies by the whole 128 x 40 weight matrix into a zero accumulator. Entry by entry that
  is the reference's bias, rectifier and second dot_general at the same row, so the ten blocks written back are the
  ten row-blocks of the reference's second product.
-/
import proofs.«173222_j37512244363443_1_alg».proof.Proof.Gen.KernelIdeal.Frame
import proofs.«173222_j37512244363443_1_alg».proof.Proof.ReadP
import proofs.«173222_j37512244363443_1_alg».proof.Proof.LibTwoBlocks
import proofs.«173222_j37512244363443_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HiddenRegion

open Cert.KernelIdeal Cert.KernelIdeal.Gen Idealize.ShloMosaic Idealize.ShloMosaic.TcCoe Idealize.SL.Sem
open Idealize.ShloMosaic.ValueIdx
open Idealize.ShloMosaic.Pipeline (Dat Cfg Window)
open Cert.ReferenceIdeal.ReadP

/-- The body's stored value at row `p`, column `q` of its block: the rectified biased row `p` of the first block
    against column `q` of the weights. -/
theorem pay1_apply (x0 : Vec Ideal S10000x128 .f32) (x1 : Vec Ideal S1x128 .f32) (x2 : Vec Ideal S128x40 .f32) (p : Fin 10000) (q : Fin 40) :
    k1_pay1 (F := Ideal) x0 x1 x2 (ix2 p q)
      = ∑ k : Fin 128, max (x0 (ix2 p k) + x1 (ix2 (0 : Fin 1) k)) (Ideal.ofBits .f32 0x00000000#32) * x2 (ix2 k q) := by
  unfold k1_pay1
  refine (Cert.Lib.TwoBlocks.plain_matmul_zero_apply dot_S10000x128_S128x40_S10000x40_1_0_0_1_n_n rfl none _ _ p q).trans ?_
  refine Finset.sum_congr rfl fun k _ => ?_
  refine congrArg (· * x2 (ix2 k q)) ?_
  show max (shapeCast S10000x128 x0 shapeCasts_S10000x128_S10000x128 (ix2 p k)
      + broadcastTo S10000x128 (shapeCast S1x128 x1 shapeCasts_S1x128_S1x128) broadcasts_S1x128_S10000x128 (ix2 p k)) (Ideal.ofBits .f32 0x00000000#32) = _
  rw [shapeCast_self, shapeCast_self, broadcastTo_1b_ab_apply]

/-- The reference's second product at row `r`, column `q`, down to its first aggregate and the bias vector. -/
theorem ref1_apply (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x40, .f32⟩ : BufTy).Contents (Elt Ideal)) (r : Fin 100000) (q : Fin 40) :
    val_main_v19 (F := Ideal) x0 x1 x2 x3 x4 (ix2 r q)
      = ∑ k : Fin 128, max (val_main_v14 (F := Ideal) x0 x1 x2 (ix2 r k) + x3 (ix1 k)) (Ideal.ofBits .f32 0x00000000#32) * x4 (ix2 k q) := by
  unfold val_main_v19
  refine (Cert.Lib.PlainDot.plain_dotGeneral_apply Cert.ReferenceIdeal.dot_S100000x128_S128x40_S100000x40_1_0_0_1_n_n rfl none _ _ r q).trans ?_
  refine Finset.sum_congr rfl fun k _ => ?_
  refine congrArg (· * x4 (ix2 k q)) ?_
  rw [val_main_v18_apply, val_main_v17_apply, val_main_v16_apply, val_main_v15_apply, val_main_call0_v0_apply, val_main_call0_cst_apply]
  have e : idx_main_v15 (idx_main_v16 (ix2 r k)) = ix1 k := funext fun a => Fin.ext (by match a with | ⟨0, _⟩ => rfl)
  rw [e]
  rfl

variable (V : (c : Dev nD) → (b : Ref sig .tc) → Buf (Elt Ideal) ((c : Thread nD τ).loc b))

/-- The zero offset of a whole-buffer access. -/
theorem hz : (![0, 0] : Fin 2 → Nat) = fun _ => 0 := funext fun a => by fin_cases a <;> rfl

/-- Block indices over the grid: the row-blocked windows are at block row `t`, the bias row and the weights at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A block of the first operand read at an entry: the operand array at the block's row offset. -/
theorem blk1_0 (c : Dev nD) (t : Fin cfg1.N) (p : Fin 10000) (k : Fin 128) (hr : t.val * 10000 + p.val < 100000) :
    iblk1 V c 0 t (ix2 p k) = V c main_v14 (ix2 (⟨t.val * 10000 + p.val, hr⟩ : Fin 100000) k) := by
  obtain ⟨e0, e1, e2, e3, e4, e5, e6, e7⟩ := idx_facts1 t
  show V c main_v14 (((cfg1.win 0).blk t).view.emb (ix2 p k)) = V c main_v14 (ix2 (⟨t.val * 10000 + p.val, hr⟩ : Fin 100000) k)
  refine congrArg (V c main_v14) ?_
  funext a; apply Fin.ext
  match a with
  | ⟨0, _⟩ => show win1_0.index t (0 : Fin 2) * 10000 + 1 * p.val = t.val * 10000 + p.val; omega
  | ⟨1, _⟩ => show win1_0.index t (1 : Fin 2) * 128 + 1 * k.val = k.val; omega

/-- The bias row's block is the whole one-row matrix. -/
theorem blk1_1 (c : Dev nD) (t : Fin cfg1.N) (k : Fin 128) :
    iblk1 V c 1 t (ix2 (0 : Fin 1) k) = V c main_v15 (ix2 (0 : Fin 1) k) := by
  obtain ⟨e0, e1, e2, e3, e4, e5, e6, e7⟩ := idx_facts1 t
  show V c main_v15 (((cfg1.win 1).blk t).view.emb (ix2 (0 : Fin 1) k)) = V c main_v15 (ix2 (0 : Fin 1) k)
  refine congrArg (V c main_v15) ?_
  funext a; apply Fin.ext
  match a with
  | ⟨0, _⟩ => show win1_1.index t (0 : Fin 2) * 1 + 1 * 0 = 0; omega
  | ⟨1, _⟩ => show win1_1.index t (1 : Fin 2) * 128 + 1 * k.val = k.val; omega

/-- The weights' block is the whole weight matrix. -/
theorem blk1_2 (c : Dev nD) (t : Fin cfg1.N) (k : Fin 128) (q : Fin 40) :
    iblk1 V c 2 t (ix2 k q) = V c main_arg4 (ix2 k q) := by
  obtain ⟨e0, e1, e2, e3, e4, e5, e6, e7⟩ := idx_facts1 t
  show V c main_arg4 (((cfg1.win 2).blk t).view.emb (ix2 k q)) = V c main_arg4 (ix2 k q)
  refine congrArg (V c main_arg4) ?_
  funext a; apply Fin.ext
  match a with
  | ⟨0, _⟩ => show win1_2.index t (0 : Fin 2) * 128 + 1 * k.val = k.val; omega
  | ⟨1, _⟩ => show win1_2.index t (1 : Fin 2) * 40 + 1 * q.val = q.val; omega

/-- What grid point `t` writes back is block `t` of any whole-array function `G` that, at every row of the block, is
    the body's value on the point's input blocks. -/
theorem flushed1_of (c : Dev nD) (G : S100000x40.Idx → Elt Ideal .f32)
    (hG : ∀ (t : Fin cfg1.N) (p : Fin 10000) (q : Fin 40) (hr : t.val * 10000 + p.val < 100000),
      k1_pay1 (F := Ideal) (iblk1 V c 0 t) (iblk1 V c 1 t) (iblk1 V c 2 t) (ix2 p q) = G (ix2 (⟨t.val * 10000 + p.val, hr⟩ : Fin 100000) q))
    (t : Fin cfg1.N) :
    (dat1 V c).flushed 3 t = ((cfg1.win 3).blk t).view.read (Elt Ideal) G := by
  show (cfg1.win 3).cut (grid1.coords t) ((dat1 V c).after 3 t) = _
  rw [after1_3]
  unfold out1_3
  rw [View.canon_unit_zero hz]
  simp only [View.ld_unit_zero (S := S10000x128) hz, View.ld_unit_zero (S := S1x128) hz, View.ld_unit_zero (S := S128x40) hz]
  funext j
  obtain ⟨p, q, rfl⟩ : ∃ (p : Fin 10000) (q : Fin 40), j = ix2 p q := ⟨j 0, j 1, eq_ix2 j⟩
  have ht : t.val < 10 := t.isLt
  obtain ⟨e0, e1, e2, e3, e4, e5, e6, e7⟩ := idx_facts1 t
  have hr : t.val * 10000 + p.val < 100000 := by have := p.isLt; omega
  show k1_pay1 (F := Ideal) (iblk1 V c 0 t) (iblk1 V c 1 t) (iblk1 V c 2 t) (ix2 p q) = G (((cfg1.win 3).blk t).view.emb (ix2 p q))
  rw [hG t p q hr]
  refine congrArg G ?_
  funext a; apply Fin.ext
  match a with
  | ⟨0, _⟩ => show t.val * 10000 + p.val = win1_3.index t (0 : Fin 2) * 10000 + 1 * p.val; omega
  | ⟨1, _⟩ => show q.val = win1_3.index t (1 : Fin 2) * 40 + 1 * q.val; omega

/-- At every row of every block the body's value is the reference's second product at that row, when the call finds
    the reference's first aggregate in its first operand and the bias vector as a one-row matrix in its second. -/
theorem body_eq_ref1 (c : Dev nD)
    (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (hA : V c main_v14 = val_main_v14 (F := Ideal) x0 x1 x2)
    (hb : ∀ k : Fin 128, V c main_v15 (ix2 (0 : Fin 1) k) = x3 (ix1 k))
    (t : Fin cfg1.N) (p : Fin 10000) (q : Fin 40) (hr : t.val * 10000 + p.val < 100000) :
    k1_pay1 (F := Ideal) (iblk1 V c 0 t) (iblk1 V c 1 t) (iblk1 V c 2 t) (ix2 p q)
      = val_main_v19 (F := Ideal) x0 x1 x2 x3 (V c main_arg4) (ix2 (⟨t.val * 10000 + p.val, hr⟩ : Fin 100000) q) := by
  rw [pay1_apply, ref1_apply]
  refine Finset.sum_congr rfl fun k _ => ?_
  rw [blk1_0 V c t p k hr, blk1_1 V c t k, blk1_2 V c t k q, hb k, congrFun hA (ix2 (⟨t.val * 10000 + p.val, hr⟩ : Fin 100000) k)]

/-- An index lies in point `t`'s output block iff each coordinate lies in the block's range. -/
theorem mem_blk1 (t : Fin cfg1.N) (i : S100000x40.Idx) :
    i ∈ ((cfg1.win 3).blk t).view.set ↔ ∀ a : Fin 2, win1_3.index t a * S10000x40.size a ≤ (i a).val ∧ (i a).val < win1_3.index t a * S10000x40.size a + S10000x40.size a := by
  show i ∈ ((View.whole main_v16).slice (win1_3.rect t)).set ↔ _
  rw [View.set_slice_whole, Rect.mem_set_unit]
  exact Iff.rfl

/-- Every index of the output lies in the block of the point numbered by its row divided by 10000. -/
theorem cover1 (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  have hN : grid1.N = 10 := N_1
  have hlt : (i 0).val / 10000 < grid1.N := by omega
  obtain ⟨e0, e1, e2, e3, e4, e5, e6, e7⟩ := idx_facts1 ⟨(i 0).val / 10000, hlt⟩
  refine ⟨⟨(i 0).val / 10000, hlt⟩, flush1_3 _, ?_⟩
  rw [mem_blk1]
  intro a
  match a with
  | ⟨0, _⟩ =>
    show win1_3.index ⟨(i 0).val / 10000, hlt⟩ (0 : Fin 2) * 10000 ≤ (i 0).val ∧ (i 0).val < win1_3.index ⟨(i 0).val / 10000, hlt⟩ (0 : Fin 2) * 10000 + 10000
    have e6' : win1_3.index ⟨(i 0).val / 10000, hlt⟩ (0 : Fin 2) = (i 0).val / 10000 := e6
    omega
  | ⟨1, _⟩ =>
    show win1_3.index ⟨(i 0).val / 10000, hlt⟩ (1 : Fin 2) * 40 ≤ (i 1).val ∧ (i 1).val < win1_3.index ⟨(i 0).val / 10000, hlt⟩ (1 : Fin 2) * 40 + 40
    omega

/-- After the second pallas_call its output array holds the reference's second product, under the two facts about
    what the call finds in its first two operands. -/
theorem final1 (c : Dev nD)
    (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (hA : V c main_v14 = val_main_v14 (F := Ideal) x0 x1 x2)
    (hb : ∀ k : Fin 128, V c main_v15 (ix2 (0 : Fin 1) k) = x3 (ix1 k)) :
    (dat1 V c).arrAt 3 cfg1.N = val_main_v19 (F := Ideal) x0 x1 x2 x3 (V c main_arg4) :=
  (dat1 V c).arrAt_eq_of_cover 3 (val_main_v19 (F := Ideal) x0 x1 x2 x3 (V c main_arg4))
    (fun t _ => flushed1_of V c _ (body_eq_ref1 V c x0 x1 x2 x3 hA hb) t) cover1

end Cert.KernelIdeal.HiddenRegion
end
-- ==== Proof.LibRowMax.lean ====
/-
  General lemmas about a row-wise maximum over the extended reals.
-/
import Idealize.ShloMosaic.Lib.Pipeline.Value
import Idealize.ShloMosaic.Lib.ValueIdx
import Idealize.ShloMosaic.PureOps.Ideal.Laws

noncomputable section

namespace Cert.Lib.RowMax

open Idealize.ShloMosaic Idealize.ShloMosaic.ValueIdx

/-- A maximum along the lanes of an `n × k` array taken from the word of `-∞` reads, at row `r`, the fold of `max` from
    that word over the row's `k` entries (in any order: `max` commutes and associates). -/
theorem laneMax_apply {n k : ℕ} (src : FVec Ideal ⟨2, ![n, k]⟩ .f32) (h : (⟨2, ![n, k]⟩ : Shape).Reduces [1] ⟨1, ![n]⟩)
    (hφ : FKind.Formats .f32) (hacc : (0xFF800000#32 : BitVec 32) = 0xFF800000#32) (r : Fin n) :
    multiReduction .maximumf [1] ⟨1, ![n]⟩ src 0xFF800000#32 h hφ hacc (ix1 r)
      = (Finset.univ : Finset (Fin k)).fold max (Ideal.ofBits .f32 0xFF800000#32) (fun c => src (ix2 r c)) := by
  refine (Ideal.multiReduction_maximumf_single src 0xFF800000#32 h hφ hacc (ix1 r)).trans ?_
  refine congrArg (fun f => (Finset.univ : Finset (Fin k)).fold max (Ideal.ofBits .f32 0xFF800000#32) f) (funext fun c => ?_)
  exact congrArg src (funext fun ax => Fin.ext (by
    match ax with
    | ⟨0, _⟩ => rfl
    | ⟨1, _⟩ => rfl))

/-- The exponential of a vector read at an entry. -/
theorem exp_apply {s : Shape} {φ : FTy} (x : FVec Ideal s φ) (i : s.Idx) : exp x i = Ideal.exp (x i) := rfl

/-- The host's exponential of a vector read at an entry: the same function. -/
theorem hostExp_apply {s : Shape} {φ : FTy} (x : FVec Ideal s φ) (i : s.Idx) : Host.exp x i = Ideal.exp (x i) := rfl

/-- The word `0xFF800000` is the bottom of the extended reals, so a maximum against it is the other operand. -/
theorem max_negInf (y : EReal) : max (Ideal.ofBits .f32 0xFF800000#32) y = y := by
  have h : Ideal.ofBits .f32 0xFF800000#32 = (⊥ : EReal) := by simp [Ideal.ofBits, Ideal.ieee]
  rw [h, max_eq_right bot_le]

end Cert.Lib.RowMax

end
-- ==== Proof.LibHostRowMax.lean ====
/-
  The host's maximum along the lanes of a matrix, read at a row, for any sizes.

  A one-operand reduce whose body is the maximum, taken along the second axis of an `n × k` array from an initial
  scalar, gives one number per row: at row `r` it is the fold of `max` from the initial value over that row's `k`
  entries (in any order: `max` commutes and associates on the extended reals).
-/
import Idealize.ShloMosaic.Lib.Pipeline.Value
import Idealize.ShloMosaic.Lib.ValueIdx
import Idealize.ShloMosaic.PureOps.Ideal.Laws

noncomputable section

namespace Cert.Lib.HostRowMax

open Idealize.ShloMosaic Idealize.ShloMosaic.ValueIdx

/-- The host's max-reduce along the lanes of an `n × k` array from the scalar `init` reads, at row `r`, the fold of
    `max` from `init`'s one entry over the row's entries. -/
theorem hostLaneMax_apply {n k : ℕ} {u : Shape} (x : FVec Ideal ⟨2, ![n, k]⟩ .f32) (init : FVec Ideal u .f32)
    (h' : (⟨2, ![n, k]⟩ : Shape).ReducesTo [1] ⟨1, ![n]⟩) (h : (⟨2, ![n, k]⟩ : Shape).Reduces [1] ⟨1, ![n]⟩)
    (hu : 0 < u.numel) (r : Fin n) :
    Host.reduce FloatOps.maximumf x init h' hu (ix1 r)
      = (Finset.univ : Finset (Fin k)).fold max (init (Shape.Idx.first hu)) (fun c => x (ix2 r c)) := by
  rw [Host.reduce_eq_fold_single FloatOps.maximumf x init h' h hu]
  refine congrArg (fun f => (Finset.univ : Finset (Fin k)).fold max (init (Shape.Idx.first hu)) f) (funext fun c => ?_)
  exact congrArg x (funext fun ax => Fin.ext (by
    match ax with
    | ⟨0, _⟩ => rfl
    | ⟨1, _⟩ => rfl))

end Cert.Lib.HostRowMax

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.LogSoftmaxRows.lean ====
/-
  The log-softmax of the rows of a matrix, entry by entry, as ONE function of the row.

  For a row z of 40 extended reals, with top the fold of max over the row from −∞, the entry q of the row's
  log-softmax is (z q − top) − log (∑ₖ exp (z k − top)).  The third kernel body adds a 1 × 40 row of biases down the
  rows of a 10000 × 40 block and then takes, on the whole block at once, the lane maximum, the difference, the
  exponential, the lane sum, the logarithm and the last difference; the reference does the same operations in the
  same order on the 100000 × 40 array of biased logits (its row top is the maximum of −∞ with the fold of max from
  −∞, which is that fold).  Both read, at an entry (p, q), that one row function at the row of biased logits.
-/
import proofs.«173222_j37512244363443_1_alg».proof.Proof.Gen.KernelIdeal.Skeleton
import proofs.«173222_j37512244363443_1_alg».proof.Proof.ReadP
import proofs.«173222_j37512244363443_1_alg».proof.Proof.LibRowMax
import proofs.«173222_j37512244363443_1_alg».proof.Proof.LibHostRowMax
import proofs.«173222_j37512244363443_1_alg».proof.Proof.LibRowOps
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.LogSoftmaxRows

open Idealize.ShloMosaic Idealize.ShloMosaic.TcCoe Idealize.SL.Sem Idealize.ShloMosaic.ValueIdx

/-! ## The row function -/

/-- The top of a row: the fold of max over its 40 entries from −∞. -/
def rowTop (z : Fin 40 → EReal) : EReal := (Finset.univ : Finset (Fin 40)).fold max (⊥ : EReal) z

/-- The log-softmax of a row of 40 extended reals at entry q: (z q − top) − log (∑ₖ exp (z k − top)), top the fold of
    max over the row from −∞. -/
def lsmRow (z : Fin 40 → EReal) (q : Fin 40) : EReal :=
  (z q - rowTop z) - Ideal.log (∑ k : Fin 40, Ideal.exp (z k - rowTop z))

/-- The f32 word 0xFF800000 is −∞, the bottom of the extended reals. -/
theorem negInf_eq_bot : Ideal.ofBits .f32 0xFF800000#32 = (⊥ : EReal) := by simp [Ideal.ofBits, Ideal.ieee]

/-! ## Two layout readings -/

/-- A length-n vector re-laid as an n × 1 column reads, at (p, 0), the vector's entry p. -/
theorem colCast_apply {α : Type} {n : ℕ} (v : (⟨1, ![n]⟩ : Shape).Idx → α)
    (h : (⟨1, ![n]⟩ : Shape).ShapeCasts ⟨2, ![n, 1]⟩) (p : Fin n) :
    shapeCast ⟨2, ![n, 1]⟩ v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

/-- A 1 × b row spread down a rows reads, at (p, q), the row's entry q. -/
theorem rowSpread_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-! ## The kernel body -/

section Kernel
open Cert.KernelIdeal

/-- The biased block at an entry: the block's entry plus the bias of that lane. -/
theorem bias_apply (x0 : FVec Ideal S10000x40 .f32) (x1 : FVec Ideal S1x40 .f32)
    (h0 : S10000x40.ShapeCasts S10000x40) (h1 : S1x40.ShapeCasts S1x40) (hb : S1x40.Broadcasts S10000x40)
    (p : Fin 10000) (k : Fin 40) :
    addf (shapeCast S10000x40 x0 h0) (broadcastTo S10000x40 (shapeCast S1x40 x1 h1) hb) (ix2 p k)
      = x0 (ix2 p k) + x1 (ix2 (0 : Fin 1) k) := by
  rw [shapeCast_self, shapeCast_self]
  refine (addf_apply _ _ _).trans ?_
  exact congrArg (x0 (ix2 p k) + ·) (rowSpread_apply x1 hb p k)

/-- A block minus its rows' tops (lane maximum from −∞, re-laid as a column, spread over the lanes), at an entry. -/
theorem centered_apply (v5 : FVec Ideal S10000x40 .f32) (hr : S10000x40.Reduces [1] S10000) (hφ : FKind.Formats .f32)
    (hm : (0xFF800000#32 : BitVec 32) = 0xFF800000#32) (hc : S10000.ShapeCasts S10000x1)
    (hb : S10000x1.Broadcasts S10000x40) (p : Fin 10000) (q : Fin 40) :
    subf v5 (broadcastTo S10000x40 (shapeCast S10000x1 (multiReduction .maximumf [1] S10000 v5 0xFF800000#32 hr hφ hm) hc) hb)
        (ix2 p q)
      = v5 (ix2 p q) - rowTop (fun k => v5 (ix2 p k)) := by
  refine (subf_apply _ _ _).trans (congrArg (v5 (ix2 p q) - ·) ?_)
  refine (Cert.Lib.RowOps.broadcastTo_a1_ab_apply _ hb p q).trans ?_
  refine (colCast_apply _ hc p).trans ?_
  refine (Cert.Lib.RowMax.laneMax_apply v5 hr hφ hm p).trans ?_
  unfold rowTop
  rw [negInf_eq_bot]

/-- The logarithm of the lane sums of the exponential of a block (the sums re-laid as a column, the logarithms spread
    over the lanes), at an entry. -/
theorem logSumExp_apply (v9 : FVec Ideal S10000x40 .f32) (hr : S10000x40.Reduces [1] S10000) (hφ : FKind.Formats .f32)
    (hz : (0x00000000#32 : BitVec 32) = 0x00000000#32) (hc : S10000.ShapeCasts S10000x1)
    (hb : S10000x1.Broadcasts S10000x40) (p : Fin 10000) (q : Fin 40) :
    broadcastTo S10000x40 (log (shapeCast S10000x1 (multiReduction .add [1] S10000 (exp v9) 0x00000000#32 hr hφ hz) hc)) hb
        (ix2 p q)
      = Ideal.log (∑ k : Fin 40, Ideal.exp (v9 (ix2 p k))) := by
  refine (Cert.Lib.RowOps.broadcastTo_a1_ab_apply _ hb p q).trans ?_
  show Ideal.log (shapeCast S10000x1 (multiReduction .add [1] S10000 (exp v9) 0x00000000#32 hr hφ hz) hc (ix2 p (0 : Fin 1))) = _
  refine congrArg Ideal.log ?_
  refine (colCast_apply _ hc p).trans ?_
  exact Cert.Lib.RowOps.laneSum_apply (exp v9) hr hφ hz p

/-- The body's chain after the bias on a block v5, at an entry: the row function at the block's row. -/
theorem block_apply (v5 : FVec Ideal S10000x40 .f32) (hr : S10000x40.Reduces [1] S10000) (hφ : FKind.Formats .f32)
    (hm : (0xFF800000#32 : BitVec 32) = 0xFF800000#32) (hz : (0x00000000#32 : BitVec 32) = 0x00000000#32)
    (hc : S10000.ShapeCasts S10000x1) (hb : S10000x1.Broadcasts S10000x40) (p : Fin 10000) (q : Fin 40) :
    subf (subf v5 (broadcastTo S10000x40 (shapeCast S10000x1 (multiReduction .maximumf [1] S10000 v5 0xFF800000#32 hr hφ hm) hc) hb))
        (broadcastTo S10000x40 (log (shapeCast S10000x1 (multiReduction .add [1] S10000
          (exp (subf v5 (broadcastTo S10000x40 (shapeCast S10000x1 (multiReduction .maximumf [1] S10000 v5 0xFF800000#32 hr hφ hm) hc) hb)))
          0x00000000#32 hr hφ hz) hc)) hb)
        (ix2 p q)
      = lsmRow (fun k => v5 (ix2 p k)) q := by
  refine (subf_apply _ _ _).trans ?_
  unfold lsmRow
  refine congrArg₂ (· - ·) (centered_apply v5 hr hφ hm hc hb p q) ?_
  refine (logSumExp_apply _ hr hφ hz hc hb p q).trans ?_
  exact congrArg Ideal.log (Finset.sum_congr rfl fun k _ => congrArg Ideal.exp (centered_apply v5 hr hφ hm hc hb p k))

/-- The third kernel body at an entry: the row function at the row of biased logits. -/
theorem kernel_row (x0 : Vec Ideal Cert.KernelIdeal.S10000x40 .f32) (x1 : Vec Ideal Cert.KernelIdeal.S1x40 .f32)
    (p : Fin 10000) (q : Fin 40) :
    Cert.KernelIdeal.Gen.k2_pay1 (F := Ideal) x0 x1 (ValueIdx.ix2 p q)
      = lsmRow (fun k => x0 (ValueIdx.ix2 p k) + x1 (ValueIdx.ix2 (0 : Fin 1) k)) q := by
  unfold Cert.KernelIdeal.Gen.k2_pay1
  exact (block_apply _ _ _ _ _ _ _ p q).trans
    (congrArg (fun z => lsmRow z q) (funext fun k => bias_apply x0 x1 _ _ _ p k))

end Kernel

/-! ## The reference's log-softmax stage -/

section Reference
open Cert.ReferenceIdeal Cert.ReferenceIdeal.Gen Cert.ReferenceIdeal.ReadP

/-- The index maps of the reference's broadcasts and reduce, at the coordinates (r, q). -/
theorem idx_top (r : Fin 100000) (q : Fin 40) : idx_main_call1_v3 (idx_main_call1_v4 (ix2 r q)) = ix1 r := by
  funext a; match a with | ⟨0, _⟩ => rfl
theorem idx_sum (r : Fin 100000) (q : Fin 40) : idx_main_call1_v8 (idx_main_call1_v10 (ix2 r q)) = ix1 r := by
  funext a; match a with | ⟨0, _⟩ => rfl
theorem idx_term (r : Fin 100000) (k : Fin 40) : idx_main_call1_v7 (ix1 r) k = ix2 r k := by
  funext a; match a with | ⟨0, _⟩ => rfl | ⟨1, _⟩ => rfl
theorem idx_bias (r : Fin 100000) (k : Fin 40) : idx_main_v30 (idx_main_v31 (ix2 r k)) = ix1 k := by
  funext a; match a with | ⟨0, _⟩ => rfl

variable (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal))

/-- The biased logits at an entry: the logit plus the bias of that lane. -/
theorem ref_bias (r : Fin 100000) (k : Fin 40) :
    val_main_v32 (F := Ideal) x0 x1 x2 x3 x4 x5 (ix2 r k)
      = val_main_v29 (F := Ideal) x0 x1 x2 x3 x4 (ix2 r k) + x5 (ix1 k) := by
  refine (val_main_v32_apply x0 x1 x2 x3 x4 x5 (ix2 r k)).trans ?_
  refine congrArg (val_main_v29 (F := Ideal) x0 x1 x2 x3 x4 (ix2 r k) + ·) ?_
  refine (val_main_v31_apply x5 (ix2 r k)).trans ?_
  refine (val_main_v30_apply x5 _).trans ?_
  exact congrArg x5 (idx_bias r k)

/-- The reference's row top — the maximum of −∞ with the fold of max from −∞ over the row — is the row's top. -/
theorem ref_top (r : Fin 100000) :
    val_main_call1_v2 (F := Ideal) x0 x1 x2 x3 x4 x5 (ix1 r)
      = rowTop (fun k => val_main_v32 (F := Ideal) x0 x1 x2 x3 x4 x5 (ix2 r k)) := by
  refine (val_main_call1_v2_apply x0 x1 x2 x3 x4 x5 (ix1 r)).trans ?_
  have h1 : val_main_call1_v1 (F := Ideal) (ix1 r) = Ideal.ofBits .f32 0xFF800000#32 :=
    (val_main_call1_v1_apply (F := Ideal) (ix1 r)).trans rfl
  have h0 : val_main_call1_v0 (F := Ideal) x0 x1 x2 x3 x4 x5 (ix1 r)
      = (Finset.univ : Finset (Fin 40)).fold max (Ideal.ofBits .f32 0xFF800000#32)
          (fun k => val_main_v32 (F := Ideal) x0 x1 x2 x3 x4 x5 (ix2 r k)) := by
    unfold val_main_call1_v0
    exact Cert.Lib.HostRowMax.hostLaneMax_apply _ _ reducesTo_S100000x40_S100000_d1 (by decide) h_S_ r
  rw [h1, h0]
  refine (Cert.Lib.RowMax.max_negInf _).trans ?_
  unfold rowTop
  rw [negInf_eq_bot]

/-- The reference's logits minus their rows' tops, at an entry. -/
theorem ref_centered (r : Fin 100000) (q : Fin 40) :
    val_main_call1_v5 (F := Ideal) x0 x1 x2 x3 x4 x5 (ix2 r q)
      = val_main_v32 (F := Ideal) x0 x1 x2 x3 x4 x5 (ix2 r q)
        - rowTop (fun k => val_main_v32 (F := Ideal) x0 x1 x2 x3 x4 x5 (ix2 r k)) := by
  refine (val_main_call1_v5_apply x0 x1 x2 x3 x4 x5 (ix2 r q)).trans ?_
  refine congrArg (val_main_v32 (F := Ideal) x0 x1 x2 x3 x4 x5 (ix2 r q) - ·) ?_
  refine (val_main_call1_v4_apply x0 x1 x2 x3 x4 x5 (ix2 r q)).trans ?_
  refine (val_main_call1_v3_apply x0 x1 x2 x3 x4 x5 _).trans ?_
  rw [idx_top r q]
  exact ref_top x0 x1 x2 x3 x4 x5 r

/-- The reference's logarithm of the row sums of the exponentials, spread over the lanes, at an entry. -/
theorem ref_logSumExp (r : Fin 100000) (q : Fin 40) :
    val_main_call1_v10 (F := Ideal) x0 x1 x2 x3 x4 x5 (ix2 r q)
      = Ideal.log (∑ k : Fin 40, Ideal.exp (val_main_call1_v5 (F := Ideal) x0 x1 x2 x3 x4 x5 (ix2 r k))) := by
  refine (val_main_call1_v10_apply x0 x1 x2 x3 x4 x5 (ix2 r q)).trans ?_
  refine (val_main_call1_v9_apply x0 x1 x2 x3 x4 x5 _).trans ?_
  refine (Ideal.hostUnary_log_def _).trans ?_
  refine congrArg Ideal.log ?_
  refine (val_main_call1_v8_apply x0 x1 x2 x3 x4 x5 _).trans ?_
  rw [idx_sum r q]
  refine (val_main_call1_v7_apply x0 x1 x2 x3 x4 x5 (ix1 r)).trans ?_
  have hz : val_main_call1_cst_1 (F := Ideal) (Shape.Idx.first h_S_) = (0 : EReal) := Ideal.ofBits_zero_f32
  rw [hz, zero_add]
  refine Finset.sum_congr rfl fun k _ => ?_
  rw [idx_term r k]
  exact (val_main_call1_v6_apply x0 x1 x2 x3 x4 x5 (ix2 r k)).trans (Ideal.hostUnary_exp_def _)

/-- The reference's log-softmax at an entry: the row function at the row of biased logits. -/
theorem reference_row (r : Fin 100000) (q : Fin 40) :
    Cert.ReferenceIdeal.ReadP.val_main_v33 (F := Ideal) x0 x1 x2 x3 x4 x5 (ValueIdx.ix2 r q)
      = lsmRow (fun k => Cert.ReferenceIdeal.ReadP.val_main_v29 (F := Ideal) x0 x1 x2 x3 x4 (ValueIdx.ix2 r k) + x5 (ValueIdx.ix1 k)) q := by
  refine (val_main_v33_apply x0 x1 x2 x3 x4 x5 (ix2 r q)).trans ?_
  have hrow : (fun k : Fin 40 => val_main_v32 (F := Ideal) x0 x1 x2 x3 x4 x5 (ix2 r k))
      = fun k => val_main_v29 (F := Ideal) x0 x1 x2 x3 x4 (ix2 r k) + x5 (ix1 k) :=
    funext fun k => ref_bias x0 x1 x2 x3 x4 x5 r k
  rw [← hrow]
  unfold lsmRow
  refine congrArg₂ (· - ·) (ref_centered x0 x1 x2 x3 x4 x5 r q) ?_
  refine (ref_logSumExp x0 x1 x2 x3 x4 x5 r q).trans ?_
  exact congrArg Ideal.log (Finset.sum_congr rfl fun k _ => congrArg Ideal.exp (ref_centered x0 x1 x2 x3 x4 x5 r k))

end Reference

end Cert.LogSoftmaxRows

end
-- ==== Proof.LogSoftmaxRegion.lean ====
/-
  The third pallas_call: every grid point adds the bias row to a block of 10000 rows of the second aggregate and takes
  the log-softmax of each of those rows. An entry of a block depends on its own row of the block and on the bias row
  only, and that row of the block is one row of the whole array; entry by entry the body's value is the reference's
  bias and log-softmax at the same row. So the ten blocks written back are the ten row-blocks of the reference's
  log-softmax, and together they are the whole output array.
-/
import proofs.«173222_j37512244363443_1_alg».proof.Proof.Gen.KernelIdeal.Frame
import proofs.«173222_j37512244363443_1_alg».proof.Proof.ReadP
import proofs.«173222_j37512244363443_1_alg».proof.Proof.LogSoftmaxRows
import Idealize.ShloMosaic.Lib.Pipeline.Value
import Idealize.ShloMosaic.Lib.ValueIdx
import Idealize.ShloMosaic.PureOps.Ideal.Laws

noncomputable section

namespace Cert.KernelIdeal.LogSoftmaxRegion

open Cert.KernelIdeal Cert.KernelIdeal.Gen Idealize.ShloMosaic Idealize.ShloMosaic.TcCoe Idealize.SL.Sem
open Idealize.ShloMosaic.ValueIdx
open Idealize.ShloMosaic.Pipeline (Dat Cfg Window)
open Cert.ReferenceIdeal.ReadP

variable (V : (c : Dev nD) → (b : Ref sig .tc) → Buf (Elt Ideal) ((c : Thread nD τ).loc b))

/-- The zero offset of a whole-buffer access. -/
theorem hz : (![0, 0] : Fin 2 → Nat) = fun _ => 0 := funext fun a => by fin_cases a <;> rfl

/-- Block indices over the grid: the two row-blocked windows are at block row t, the bias row at block 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A block of the first operand read at an entry: the operand array at the block's row offset. -/
theorem blk2_0 (c : Dev nD) (t : Fin cfg2.N) (p : Fin 10000) (k : Fin 40) (hr : t.val * 10000 + p.val < 100000) :
    iblk2 V c 0 t (ix2 p k) = V c main_v26 (ix2 (⟨t.val * 10000 + p.val, hr⟩ : Fin 100000) k) := by
  obtain ⟨e0, e1, e2, e3, e4, e5⟩ := idx_facts2 t
  show V c main_v26 (((cfg2.win 0).blk t).view.emb (ix2 p k)) = V c main_v26 (ix2 (⟨t.val * 10000 + p.val, hr⟩ : Fin 100000) k)
  refine congrArg (V c main_v26) ?_
  funext a; apply Fin.ext
  match a with
  | ⟨0, _⟩ => show win2_0.index t (0 : Fin 2) * 10000 + 1 * p.val = t.val * 10000 + p.val; omega
  | ⟨1, _⟩ => show win2_0.index t (1 : Fin 2) * 40 + 1 * k.val = k.val; omega

/-- The bias row's block is the whole one-row matrix. -/
theorem blk2_1 (c : Dev nD) (t : Fin cfg2.N) (k : Fin 40) :
    iblk2 V c 1 t (ix2 (0 : Fin 1) k) = V c main_v27 (ix2 (0 : Fin 1) k) := by
  obtain ⟨e0, e1, e2, e3, e4, e5⟩ := idx_facts2 t
  show V c main_v27 (((cfg2.win 1).blk t).view.emb (ix2 (0 : Fin 1) k)) = V c main_v27 (ix2 (0 : Fin 1) k)
  refine congrArg (V c main_v27) ?_
  funext a; apply Fin.ext
  match a with
  | ⟨0, _⟩ => show win2_1.index t (0 : Fin 2) * 1 + 1 * 0 = 0; omega
  | ⟨1, _⟩ => show win2_1.index t (1 : Fin 2) * 40 + 1 * k.val = k.val; omega

/-- What grid point t writes back is block t of any whole-array function G that, at every row of the block, is the
    body's value on the point's input blocks. -/
theorem flushed2_of (c : Dev nD) (G : S100000x40.Idx → Elt Ideal .f32)
    (hG : ∀ (t : Fin cfg2.N) (p : Fin 10000) (q : Fin 40) (hr : t.val * 10000 + p.val < 100000),
      k2_pay1 (F := Ideal) (iblk2 V c 0 t) (iblk2 V c 1 t) (ix2 p q) = G (ix2 (⟨t.val * 10000 + p.val, hr⟩ : Fin 100000) q))
    (t : Fin cfg2.N) :
    (dat2 V c).flushed 2 t = ((cfg2.win 2).blk t).view.read (Elt Ideal) G := by
  show (cfg2.win 2).cut (grid2.coords t) ((dat2 V c).after 2 t) = _
  rw [after2_2]
  unfold out2_2
  rw [View.canon_unit_zero hz]
  simp only [View.ld_unit_zero (S := S10000x40) hz, View.ld_unit_zero (S := S1x40) hz]
  funext j
  obtain ⟨p, q, rfl⟩ : ∃ (p : Fin 10000) (q : Fin 40), j = ix2 p q := ⟨j 0, j 1, eq_ix2 j⟩
  have ht : t.val < 10 := t.isLt
  obtain ⟨e0, e1, e2, e3, e4, e5⟩ := idx_facts2 t
  have hr : t.val * 10000 + p.val < 100000 := by have := p.isLt; omega
  show k2_pay1 (F := Ideal) (iblk2 V c 0 t) (iblk2 V c 1 t) (ix2 p q) = G (((cfg2.win 2).blk t).view.emb (ix2 p q))
  rw [hG t p q hr]
  refine congrArg G ?_
  funext a; apply Fin.ext
  match a with
  | ⟨0, _⟩ => show t.val * 10000 + p.val = win2_2.index t (0 : Fin 2) * 10000 + 1 * p.val; omega
  | ⟨1, _⟩ => show q.val = win2_2.index t (1 : Fin 2) * 40 + 1 * q.val; omega

/-- At every row of every block the body's value is the reference's log-softmax at that row of the whole array, when
    the call finds the reference's second aggregate in its first operand and the bias vector as a one-row matrix in its
    second: both are the row function at the row of biased logits, and the block's row is the array's row. -/
theorem body_eq_ref2 (c : Dev nD)
    (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x40, .f32⟩ : BufTy).Contents (Elt Ideal)) (x5 : (⟨Cert.ReferenceIdeal.S40, .f32⟩ : BufTy).Contents (Elt Ideal))
    (hA : V c main_v26 = val_main_v29 (F := Ideal) x0 x1 x2 x3 x4)
    (hb : ∀ k : Fin 40, V c main_v27 (ix2 (0 : Fin 1) k) = x5 (ix1 k))
    (t : Fin cfg2.N) (p : Fin 10000) (q : Fin 40) (hr : t.val * 10000 + p.val < 100000) :
    k2_pay1 (F := Ideal) (iblk2 V c 0 t) (iblk2 V c 1 t) (ix2 p q)
      = val_main_v33 (F := Ideal) x0 x1 x2 x3 x4 x5 (ix2 (⟨t.val * 10000 + p.val, hr⟩ : Fin 100000) q) := by
  refine (Cert.LogSoftmaxRows.kernel_row (iblk2 V c 0 t) (iblk2 V c 1 t) p q).trans ?_
  refine Eq.trans ?_ (Cert.LogSoftmaxRows.reference_row x0 x1 x2 x3 x4 x5 (⟨t.val * 10000 + p.val, hr⟩ : Fin 100000) q).symm
  refine congrArg (fun z => Cert.LogSoftmaxRows.lsmRow z q) (funext fun k => ?_)
  rw [blk2_0 V c t p k hr, blk2_1 V c t k, hb k, congrFun hA (ix2 (⟨t.val * 10000 + p.val, hr⟩ : Fin 100000) k)]

/-- An index lies in point t's output block iff each coordinate lies in the block's range. -/
theorem mem_blk2 (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v28).slice (win2_2.rect t)).set ↔ _
  rw [View.set_slice_whole, Rect.mem_set_unit]
  exact Iff.rfl

/-- Every index of the output lies in the block of the point numbered by its row divided by 10000. -/
theorem cover2 (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : grid2.N = 10 := N_2
  have hlt : (i 0).val / 10000 < grid2.N := by omega
  obtain ⟨e0, e1, e2, e3, e4, e5⟩ := idx_facts2 ⟨(i 0).val / 10000, hlt⟩
  refine ⟨⟨(i 0).val / 10000, hlt⟩, flush2_2 _, ?_⟩
  rw [mem_blk2]
  intro a
  match a with
  | ⟨0, _⟩ =>
    show win2_2.index ⟨(i 0).val / 10000, hlt⟩ (0 : Fin 2) * 10000 ≤ (i 0).val ∧ (i 0).val < win2_2.index ⟨(i 0).val / 10000, hlt⟩ (0 : Fin 2) * 10000 + 10000
    have e4' : win2_2.index ⟨(i 0).val / 10000, hlt⟩ (0 : Fin 2) = (i 0).val / 10000 := e4
    omega
  | ⟨1, _⟩ =>
    show win2_2.index ⟨(i 0).val / 10000, hlt⟩ (1 : Fin 2) * 40 ≤ (i 1).val ∧ (i 1).val < win2_2.index ⟨(i 0).val / 10000, hlt⟩ (1 : Fin 2) * 40 + 40
    omega

/-- After the third pallas_call its output array holds the reference's log-softmax of the biased second aggregate,
    under the two facts about what the call finds in its two operands. -/
theorem final2 (c : Dev nD)
    (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x40, .f32⟩ : BufTy).Contents (Elt Ideal)) (x5 : (⟨Cert.ReferenceIdeal.S40, .f32⟩ : BufTy).Contents (Elt Ideal))
    (hA : V c main_v26 = Cert.ReferenceIdeal.ReadP.val_main_v29 (F := Ideal) x0 x1 x2 x3 x4)
    (hb : ∀ k : Fin 40, V c main_v27 (ix2 (0 : Fin 1) k) = x5 (ix1 k)) :
    (dat2 V c).arrAt 2 cfg2.N = Cert.ReferenceIdeal.ReadP.val_main_v33 (F := Ideal) x0 x1 x2 x3 x4 x5 :=
  (dat2 V c).arrAt_eq_of_cover 2 (val_main_v33 (F := Ideal) x0 x1 x2 x3 x4 x5)
    (fun t _ => flushed2_of V c _ (body_eq_ref2 V c x0 x1 x2 x3 x4 x5 hA hb) t) cover2

end Cert.KernelIdeal.LogSoftmaxRegion
end
-- ==== Proof.HostStretches.lean ====
/-
  The host operations of the idealized kernel between its pallas_calls, read back. Each stretch is the reference's own
  sequence of operations on the same kind of operands — slicing the edge list into its source and destination rows,
  wrapping negative source positions, gathering rows of a table at the sources and adding them into a zero table at
  the destinations — so when the table a stretch gathers from is a stage of the reference, what the stretch leaves in
  its aggregate buffer is the reference's next stage, by the definitions alone. The bias vectors are re-laid as
  one-row matrices; read at an entry they are the vectors.
-/
import proofs.«173222_j37512244363443_1_alg».proof.Proof.Gen.KernelIdeal.Launch
import proofs.«173222_j37512244363443_1_alg».proof.Proof.ReadP
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostStretches

open Cert.KernelIdeal Cert.KernelIdeal.Gen Idealize.ShloMosaic Idealize.ShloMosaic.TcCoe Idealize.SL.Sem Idealize.ShloMosaic.StableHlo
open Idealize.ShloMosaic.ValueIdx
open Cert.ReferenceIdeal.ReadP

variable (Wv : Valuation τ sig (Elt Ideal))

/-! ## The first stretch: the edge list's two rows -/

/-- The source row of the edge list, as the reference slices it. -/
theorem stretch0_v1 : after (hostOps0 (F := Ideal)) Wv (Proc.devRef .tc main_v1) = val_main_v1 (F := Ideal) (Wv (Proc.devRef .tc main_arg1)) := by
  after_results
  rfl

/-- The destination row of the edge list, as the reference slices it. -/
theorem stretch0_v3 : after (hostOps0 (F := Ideal)) Wv (Proc.devRef .tc main_v3) = val_main_v3 (F := Ideal) (Wv (Proc.devRef .tc main_arg1)) := by
  after_results
  rfl

theorem stretch0_arg0 : after (hostOps0 (F := Ideal)) Wv (Proc.devRef .tc main_arg0) = Wv (Proc.devRef .tc main_arg0) := by after_results
theorem stretch0_arg2 : after (hostOps0 (F := Ideal)) Wv (Proc.devRef .tc main_arg2) = Wv (Proc.devRef .tc main_arg2) := by after_results
theorem stretch0_arg3 : after (hostOps0 (F := Ideal)) Wv (Proc.devRef .tc main_arg3) = Wv (Proc.devRef .tc main_arg3) := by after_results
theorem stretch0_arg4 : after (hostOps0 (F := Ideal)) Wv (Proc.devRef .tc main_arg4) = Wv (Proc.devRef .tc main_arg4) := by after_results
theorem stretch0_arg5 : after (hostOps0 (F := Ideal)) Wv (Proc.devRef .tc main_arg5) = Wv (Proc.devRef .tc main_arg5) := by after_results

/-! ## The second stretch: the first aggregation, and the first bias as a one-row matrix -/

/-- Gathering the rows of the reference's first product at the wrapped sources and adding them into a zero table at
    the destinations is the reference's first aggregate. -/
theorem stretch1_v14
    (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S128x128, .f32⟩ : BufTy).Contents (Elt Ideal))
    (h4 : Wv (Proc.devRef .tc main_v4) = val_main_v4 (F := Ideal) x0 x2)
    (h1 : Wv (Proc.devRef .tc main_v1) = val_main_v1 (F := Ideal) x1)
    (h3 : Wv (Proc.devRef .tc main_v3) = val_main_v3 (F := Ideal) x1) :
    after (hostOps1 (F := Ideal)) Wv (Proc.devRef .tc main_v14) = val_main_v14 (F := Ideal) x0 x1 x2 := by
  after_results
  rw [h4, h1, h3]
  rfl

/-- The first bias vector re-laid as a one-row matrix, read at an entry. -/
theorem stretch1_v15 (k : Fin 128) :
    after (hostOps1 (F := Ideal)) Wv (Proc.devRef .tc main_v15) (ix2 (0 : Fin 1) k) = Wv (Proc.devRef .tc main_arg3) (ix1 k) := by
  after_results
  exact shapeCast_a_1a_apply (Wv (Proc.devRef .tc main_arg3)) shapeCasts_S128_S1x128 (0 : Fin 1) k

theorem stretch1_arg4 : after (hostOps1 (F := Ideal)) Wv (Proc.devRef .tc main_arg4) = Wv (Proc.devRef .tc main_arg4) := by after_results
theorem stretch1_arg5 : after (hostOps1 (F := Ideal)) Wv (Proc.devRef .tc main_arg5) = Wv (Proc.devRef .tc main_arg5) := by after_results
theorem stretch1_v1 : after (hostOps1 (F := Ideal)) Wv (Proc.devRef .tc main_v1) = Wv (Proc.devRef .tc main_v1) := by after_results
theorem stretch1_v3 : after (hostOps1 (F := Ideal)) Wv (Proc.devRef .tc main_v3) = Wv (Proc.devRef .tc main_v3) := by after_results

/-! ## The third stretch: the second aggregation, and the second bias as a one-row matrix -/

/-- The same aggregation of the reference's second product is the reference's second aggregate. -/
theorem stretch2_v26
    (x0 : (⟨Cert.ReferenceIdeal.S100000x128, .f32⟩ : BufTy).Contents (Elt Ideal)) (x1 : (⟨Cert.ReferenceIdeal.S2x1600000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x40, .f32⟩ : BufTy).Contents (Elt Ideal))
    (h16 : Wv (Proc.devRef .tc main_v16) = val_main_v19 (F := Ideal) x0 x1 x2 x3 x4)
    (h1 : Wv (Proc.devRef .tc main_v1) = val_main_v1 (F := Ideal) x1)
    (h3 : Wv (Proc.devRef .tc main_v3) = val_main_v3 (F := Ideal) x1) :
    after (hostOps2 (F := Ideal)) Wv (Proc.devRef .tc main_v26) = val_main_v29 (F := Ideal) x0 x1 x2 x3 x4 := by
  after_results
  rw [h16, h1, h3]
  rfl

/-- The second bias vector re-laid as a one-row matrix, read at an entry. -/
theorem stretch2_v27 (k : Fin 40) :
    after (hostOps2 (F := Ideal)) Wv (Proc.devRef .tc main_v27) (ix2 (0 : Fin 1) k) = Wv (Proc.devRef .tc main_arg5) (ix1 k) := by
  after_results
  exact shapeCast_a_1a_apply (Wv (Proc.devRef .tc main_arg5)) shapeCasts_S40_S1x40 (0 : Fin 1) k

end Cert.KernelIdeal.HostStretches
end
-- ==== Proof.KernelValue.lean ====
/-
  The idealized kernel's result as a function of its arguments. The frame certificate keeps the contents of every
  buffer at each boundary between a stretch of host operations and a pallas_call as a fold over the launch memory.
  Walking that fold forward: the first call leaves the product of the features with the first weights, the reference's
  first stage; the host stretch after it aggregates that table along the edges exactly as the reference does; the
  second call adds the bias, rectifies and multiplies by the second weights, the reference's next stage on the same
  rows; the second aggregation follows in the same way; and the last call takes the row-wise log-softmax of the biased
  aggregate. So the result buffer ends at the reference's last stage of the six argument arrays.
-/
import proofs.«173222_j37512244363443_1_alg».proof.Proof.Gen.KernelIdeal.Frame
import proofs.«173222_j37512244363443_1_alg».proof.Proof.ReadP
import proofs.«173222_j37512244363443_1_alg».proof.Proof.ProductRegion
import proofs.«173222_j37512244363443_1_alg».proof.Proof.HiddenRegion
import proofs.«173222_j37512244363443_1_alg».proof.Proof.LogSoftmaxRegion
import proofs.«173222_j37512244363443_1_alg».proof.Proof.HostStretches

noncomputable section

namespace Cert.KernelIdeal.KernelValue

open Cert.KernelIdeal Cert.KernelIdeal.Gen Idealize.ShloMosaic Idealize.ShloMosaic.TcCoe Idealize.SL.Sem
open Idealize.ShloMosaic.ValueIdx
open Cert.ReferenceIdeal.ReadP Cert.KernelIdeal.HostStretches

variable (m : (ℓ : Loc nD τ sig) → Buf (Elt Ideal) ℓ) (ρ : Dev nD → PrngReg) (c : Dev nD)

/-! ## Entering the first call: the arguments as launched, the edge list cut into its two rows -/

theorem W1_arg0 : W1 m ρ c (Proc.devRef .tc main_arg0) = m ((c.tc : Thread nD τ).loc main_arg0) := stretch0_arg0 (W0 m ρ c)
theorem W1_arg2 : W1 m ρ c (Proc.devRef .tc main_arg2) = m ((c.tc : Thread nD τ).loc main_arg2) := stretch0_arg2 (W0 m ρ c)
theorem W1_arg3 : W1 m ρ c (Proc.devRef .tc main_arg3) = m ((c.tc : Thread nD τ).loc main_arg3) := stretch0_arg3 (W0 m ρ c)
theorem W1_arg4 : W1 m ρ c (Proc.devRef .tc main_arg4) = m ((c.tc : Thread nD τ).loc main_arg4) := stretch0_arg4 (W0 m ρ c)
theorem W1_arg5 : W1 m ρ c (Proc.devRef .tc main_arg5) = m ((c.tc : Thread nD τ).loc main_arg5) := stretch0_arg5 (W0 m ρ c)
theorem W1_v1 : W1 m ρ c (Proc.devRef .tc main_v1) = val_main_v1 (F := Ideal) (m ((c.tc : Thread nD τ).loc main_arg1)) := stretch0_v1 (W0 m ρ c)
theorem W1_v3 : W1 m ρ c (Proc.devRef .tc main_v3) = val_main_v3 (F := Ideal) (m ((c.tc : Thread nD τ).loc main_arg1)) := stretch0_v3 (W0 m ρ c)

/-! ## Leaving the first call: its output is the reference's first product; nothing else it is not an operand of moved -/

theorem W2_v4 : W2 m ρ c (Proc.devRef .tc main_v4)
    = val_main_v4 (F := Ideal) (m ((c.tc : Thread nD τ).loc main_arg0)) (m ((c.tc : Thread nD τ).loc main_arg2)) := by
  refine (W2_arr m ρ c 2).trans ((Cert.KernelIdeal.ProductRegion.final0 (V1 m ρ) c).trans ?_)
  show val_main_v4 (F := Ideal) (W1 m ρ c (Proc.devRef .tc main_arg0)) (W1 m ρ c (Proc.devRef .tc main_arg2)) = _
  rw [W1_arg0, W1_arg2]
theorem W2_v1 : W2 m ρ c (Proc.devRef .tc main_v1) = val_main_v1 (F := Ideal) (m ((c.tc : Thread nD τ).loc main_arg1)) :=
  (W2_of_ne m ρ c main_v1 (by decide)).trans (W1_v1 m ρ c)
theorem W2_v3 : W2 m ρ c (Proc.devRef .tc main_v3) = val_main_v3 (F := Ideal) (m ((c.tc : Thread nD τ).loc main_arg1)) :=
  (W2_of_ne m ρ c main_v3 (by decide)).trans (W1_v3 m ρ c)
theorem W2_arg3 : W2 m ρ c (Proc.devRef .tc main_arg3) = m ((c.tc : Thread nD τ).loc main_arg3) :=
  (W2_of_ne m ρ c main_arg3 (by decide)).trans (W1_arg3 m ρ c)
theorem W2_arg4 : W2 m ρ c (Proc.devRef .tc main_arg4) = m ((c.tc : Thread nD τ).loc main_arg4) :=
  (W2_of_ne m ρ c main_arg4 (by decide)).trans (W1_arg4 m ρ c)
theorem W2_arg5 : W2 m ρ c (Proc.devRef .tc main_arg5) = m ((c.tc : Thread nD τ).loc main_arg5) :=
  (W2_of_ne m ρ c main_arg5 (by decide)).trans (W1_arg5 m ρ c)

/-! ## Entering the second call: the first aggregate, the first bias as a row -/

theorem W3_v14 : W3 m ρ c (Proc.devRef .tc main_v14)
    = val_main_v14 (F := Ideal) (m ((c.tc : Thread nD τ).loc main_arg0)) (m ((c.tc : Thread nD τ).loc main_arg1)) (m ((c.tc : Thread nD τ).loc main_arg2)) :=
  stretch1_v14 (W2 m ρ c) _ _ _ (W2_v4 m ρ c) (W2_v1 m ρ c) (W2_v3 m ρ c)
theorem W3_v15 (k : Fin 128) : W3 m ρ c (Proc.devRef .tc main_v15) (ix2 (0 : Fin 1) k) = m ((c.tc : Thread nD τ).loc main_arg3) (ix1 k) :=
  (stretch1_v15 (W2 m ρ c) k).trans (congrFun (W2_arg3 m ρ c) (ix1 k))
theorem W3_arg4 : W3 m ρ c (Proc.devRef .tc main_arg4) = m ((c.tc : Thread nD τ).loc main_arg4) :=
  (stretch1_arg4 (W2 m ρ c)).trans (W2_arg4 m ρ c)
theorem W3_arg5 : W3 m ρ c (Proc.devRef .tc main_arg5) = m ((c.tc : Thread nD τ).loc main_arg5) :=
  (stretch1_arg5 (W2 m ρ c)).trans (W2_arg5 m ρ c)
theorem W3_v1 : W3 m ρ c (Proc.devRef .tc main_v1) = val_main_v1 (F := Ideal) (m ((c.tc : Thread nD τ).loc main_arg1)) :=
  (stretch1_v1 (W2 m ρ c)).trans (W2_v1 m ρ c)
theorem W3_v3 : W3 m ρ c (Proc.devRef .tc main_v3) = val_main_v3 (F := Ideal) (m ((c.tc : Thread nD τ).loc main_arg1)) :=
  (stretch1_v3 (W2 m ρ c)).trans (W2_v3 m ρ c)

/-! ## Leaving the second call: the reference's second product -/

theorem W4_v16 : W4 m ρ c (Proc.devRef .tc main_v16)
    = val_main_v19 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (W4_arr m ρ c 3).trans ((Cert.KernelIdeal.HiddenRegion.final1 (V3 m ρ) c _ _ _ _ (W3_v14 m ρ c) (W3_v15 m ρ c)).trans ?_)
  show val_main_v19 (F := Ideal) _ _ _ _ (W3 m ρ c (Proc.devRef .tc main_arg4)) = _
  rw [W3_arg4]
theorem W4_v1 : W4 m ρ c (Proc.devRef .tc main_v1) = val_main_v1 (F := Ideal) (m ((c.tc : Thread nD τ).loc main_arg1)) :=
  (W4_of_ne m ρ c main_v1 (by decide)).trans (W3_v1 m ρ c)
theorem W4_v3 : W4 m ρ c (Proc.devRef .tc main_v3) = val_main_v3 (F := Ideal) (m ((c.tc : Thread nD τ).loc main_arg1)) :=
  (W4_of_ne m ρ c main_v3 (by decide)).trans (W3_v3 m ρ c)
theorem W4_arg5 : W4 m ρ c (Proc.devRef .tc main_arg5) = m ((c.tc : Thread nD τ).loc main_arg5) :=
  (W4_of_ne m ρ c main_arg5 (by decide)).trans (W3_arg5 m ρ c)

/-! ## Entering the third call: the second aggregate, the second bias as a row -/

theorem W5_v26 : W5 m ρ c (Proc.devRef .tc main_v26)
    = val_main_v29 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) :=
  stretch2_v26 (W4 m ρ c) _ _ _ _ _ (W4_v16 m ρ c) (W4_v1 m ρ c) (W4_v3 m ρ c)
theorem W5_v27 (k : Fin 40) : W5 m ρ c (Proc.devRef .tc main_v27) (ix2 (0 : Fin 1) k) = m ((c.tc : Thread nD τ).loc main_arg5) (ix1 k) :=
  (stretch2_v27 (W4 m ρ c) k).trans (congrFun (W4_arg5 m ρ c) (ix1 k))

/-! ## Leaving the third call: the reference's result -/

/-- After the run's last boundary the result buffer holds the reference's last stage of the argument arrays. -/
theorem W6_v28 : W6 m ρ c (Proc.devRef .tc main_v28)
    = val_main_v33 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) :=
  (W6_arr m ρ c 2).trans (Cert.KernelIdeal.LogSoftmaxRegion.final2 (V5 m ρ) c _ _ _ _ _ _ (W5_v26 m ρ c) (W5_v27 m ρ c))

end Cert.KernelIdeal.KernelValue
end
-- ==== Proof.RefValue.lean ====
import proofs.«173222_j37512244363443_1_alg».proof.Proof.RefRun
import proofs.«173222_j37512244363443_1_alg».proof.Proof.ReadP
import Idealize.ShloMosaic.Lib.StableHlo.Run

/-!
# The reference program's run, read back

The reference is a straight line of 56 tensor operations. Once they have run, every buffer holds the fold of the
operations' results over the launch contents. This module evaluates that fold at the result buffer and at the six
argument buffers: the result buffer holds the last stage function of the six argument arrays, and no argument buffer
is written.

The fold is read in four stretches — the first layer up to its bias add, the rectifier, the second layer up to its
bias add, the row-wise log-softmax — and each stretch is evaluated over an arbitrary valuation, with what the earlier
stretches left given by hypotheses. The second layer's pre-activation feeds the log-softmax three times (the row
maximum, the shifted values, and through them the row sum); keeping it a variable while the log-softmax is evaluated
keeps every comparison between small terms.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Operations 1–21: the first layer up to the bias add (everything before the rectifier). -/
abbrev s1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_v1 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v7 (broadcastInDim S1600000 ![] bcast_S_S1600000 : (⟨S_, .i32⟩ : BufTy).Contents (Elt F) → (⟨S1600000, .i32⟩ : BufTy).Contents (Elt F)),
    binary main_v1 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_v1 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    binary main_v4 main_v10 main_v11 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v12 (broadcastInDim S100000x128 ![] bcast_S_S100000x128 : (⟨S_, .f32⟩ : BufTy).Contents (Elt F) → (⟨S100000x128, .f32⟩ : BufTy).Contents (Elt F)),
    unary main_v3 main_v13 (broadcastInDim S1600000x1 ![0] bcast_S1600000_S1600000x1_0 : (⟨S1600000, .i32⟩ : BufTy).Contents (Elt F) → (⟨S1600000x1, .i32⟩ : BufTy).Contents (Elt F)),
    ternary main_v12 main_v13 main_v11 main_v14 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg3 main_v15 (broadcastInDim S1x128 ![1] bcast_S128_S1x128_1 : (⟨S128, .f32⟩ : BufTy).Contents (Elt F) → (⟨S1x128, .f32⟩ : BufTy).Contents (Elt F)),
    unary main_v15 main_v16 (broadcastInDim S100000x128 ![0, 1] bcast_S1x128_S100000x128_0_1 : (⟨S1x128, .f32⟩ : BufTy).Contents (Elt F) → (⟨S100000x128, .f32⟩ : BufTy).Contents (Elt F)),
    binary main_v14 main_v16 main_v17 (addf : (⟨S100000x128, .f32⟩ : BufTy).Contents (Elt F) → (⟨S100000x128, .f32⟩ : BufTy).Contents (Elt F) → (⟨S100000x128, .f32⟩ : BufTy).Contents (Elt F)) ]

/-- Operations 22–24: the rectifier, max(·, 0). -/
abbrev s2 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v17) (TRef.of (T := ⟨S100000x128, .f32⟩) main_call0_v0) (TRef.of (T := ⟨S100000x128, .f32⟩) main_v18) maximumf ]

/-- Operations 25–41: the second layer up to its bias add. -/
abbrev s3 : List (HloOp τ sig (Elt F)) :=
  [ binary main_v18 main_arg4 main_v19 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    nullary main_c_1 (constantI S_ 32 0#32),
    unary main_c_1 main_v20 (broadcastInDim S1600000 ![] bcast_S_S1600000 : (⟨S_, .i32⟩ : BufTy).Contents (Elt F) → (⟨S1600000, .i32⟩ : BufTy).Contents (Elt F)),
    binary main_v1 main_v20 main_v21 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v22 (broadcastInDim S1600000 ![] bcast_S_S1600000 : (⟨S_, .i32⟩ : BufTy).Contents (Elt F) → (⟨S1600000, .i32⟩ : BufTy).Contents (Elt F)),
    binary main_v1 main_v22 main_v23 (addi : (⟨S1600000, .i32⟩ : BufTy).Contents (Elt F) → (⟨S1600000, .i32⟩ : BufTy).Contents (Elt F) → (⟨S1600000, .i32⟩ : BufTy).Contents (Elt F)),
    ternary main_v21 main_v23 main_v1 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v24 main_v25 (broadcastInDim S1600000x1 ![0] bcast_S1600000_S1600000x1_0 : (⟨S1600000, .i32⟩ : BufTy).Contents (Elt F) → (⟨S1600000x1, .i32⟩ : BufTy).Contents (Elt F)),
    binary main_v19 main_v25 main_v26 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    nullary main_cst_3 (constant S_ .f32 0x00000000#32),
    unary main_cst_3 main_v27 (broadcastInDim S100000x40 ![] bcast_S_S100000x40 : (⟨S_, .f32⟩ : BufTy).Contents (Elt F) → (⟨S100000x40, .f32⟩ : BufTy).Contents (Elt F)),
    unary main_v3 main_v28 (broadcastInDim S1600000x1 ![0] bcast_S1600000_S1600000x1_0 : (⟨S1600000, .i32⟩ : BufTy).Contents (Elt F) → (⟨S1600000x1, .i32⟩ : BufTy).Contents (Elt F)),
    ternary main_v27 main_v28 main_v26 main_v29 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    unary main_arg5 main_v30 (broadcastInDim S1x40 ![1] bcast_S40_S1x40_1 : (⟨S40, .f32⟩ : BufTy).Contents (Elt F) → (⟨S1x40, .f32⟩ : BufTy).Contents (Elt F)),
    unary main_v30 main_v31 (broadcastInDim S100000x40 ![0, 1] bcast_S1x40_S100000x40_0_1 : (⟨S1x40, .f32⟩ : BufTy).Contents (Elt F) → (⟨S100000x40, .f32⟩ : BufTy).Contents (Elt F)),
    binary main_v29 main_v31 main_v32 (addf : (⟨S100000x40, .f32⟩ : BufTy).Contents (Elt F) → (⟨S100000x40, .f32⟩ : BufTy).Contents (Elt F) → (⟨S100000x40, .f32⟩ : BufTy).Contents (Elt F)) ]

/-- Operations 42–56: the row-wise log-softmax. -/
abbrev s4 : List (HloOp τ sig (Elt F)) :=
  [ TRef.nullary (TRef.of (T := ⟨S_, .f32⟩) main_call1_cst) (constant S_ .f32 0xFF800000#32),
    TRef.binary (TRef.of (T := ⟨S100000x40, .f32⟩) main_v32) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v32) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v33) subf ]

/-- The operation list is the four stretches in order. -/
theorem ops_eq : (ValueP.ops : List (HloOp τ sig (Elt F))) = s1 ++ (s2 ++ (s3 ++ s4)) := rfl

/-! ### Stretch 1: the first layer before the rectifier -/

/-- After the first stretch the pre-activation of layer 1 is its stage function of the four arguments it reads. -/
theorem s1_v17 (V : Valuation τ sig (Elt F)) :
    after (s1 (F := F)) V (Proc.devRef .tc main_v17)
      = ReadP.val_main_v17 (F := F) (V (Proc.devRef .tc main_arg0)) (V (Proc.devRef .tc main_arg1)) (V (Proc.devRef .tc main_arg2)) (V (Proc.devRef .tc main_arg3)) := by
  after_results_simp <;> rfl

/-- After the first stretch the source-node index vector is row 0 of the edge list, flattened. -/
theorem s1_v1 (V : Valuation τ sig (Elt F)) :
    after (s1 (F := F)) V (Proc.devRef .tc main_v1) = ReadP.val_main_v1 (F := F) (V (Proc.devRef .tc main_arg1)) := by
  after_results_simp <;> rfl

/-- After the first stretch the target-node index vector is row 1 of the edge list, flattened. -/
theorem s1_v3 (V : Valuation τ sig (Elt F)) :
    after (s1 (F := F)) V (Proc.devRef .tc main_v3) = ReadP.val_main_v3 (F := F) (V (Proc.devRef .tc main_arg1)) := by
  after_results_simp <;> rfl

/-- The first stretch writes neither the second weight matrix nor the second bias. -/
theorem s1_arg4 (V : Valuation τ sig (Elt F)) :
    after (s1 (F := F)) V (Proc.devRef .tc main_arg4) = V (Proc.devRef .tc main_arg4) := by
  after_results_simp <;> rfl
theorem s1_arg5 (V : Valuation τ sig (Elt F)) :
    after (s1 (F := F)) V (Proc.devRef .tc main_arg5) = V (Proc.devRef .tc main_arg5) := by
  after_results_simp <;> rfl

/-! ### Stretch 2: the rectifier -/

/-- The rectifier's three operations turn a buffer holding the pre-activation into one holding max(·, 0) of it. -/
theorem s2_v18 (V : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F))
    (h17 : V (Proc.devRef .tc main_v17) = ReadP.val_main_v17 (F := F) x0 x1 x2 x3) :
    after (s2 (F := F)) V (Proc.devRef .tc main_v18) = ReadP.val_main_v18 (F := F) x0 x1 x2 x3 := by
  after_results_simp
  rw [h17]
  rfl

/-- The rectifier writes none of the buffers the second layer reads besides its own result. -/
theorem s2_v1 (V : Valuation τ sig (Elt F)) :
    after (s2 (F := F)) V (Proc.devRef .tc main_v1) = V (Proc.devRef .tc main_v1) := by
  after_results_simp <;> rfl
theorem s2_v3 (V : Valuation τ sig (Elt F)) :
    after (s2 (F := F)) V (Proc.devRef .tc main_v3) = V (Proc.devRef .tc main_v3) := by
  after_results_simp <;> rfl
theorem s2_arg4 (V : Valuation τ sig (Elt F)) :
    after (s2 (F := F)) V (Proc.devRef .tc main_arg4) = V (Proc.devRef .tc main_arg4) := by
  after_results_simp <;> rfl
theorem s2_arg5 (V : Valuation τ sig (Elt F)) :
    after (s2 (F := F)) V (Proc.devRef .tc main_arg5) = V (Proc.devRef .tc main_arg5) := by
  after_results_simp <;> rfl

/-! ### Stretch 3: the second layer before the log-softmax -/

/-- From buffers holding the rectified first layer, the two index vectors, the second weight matrix and the second
    bias, the third stretch leaves the second layer's pre-activation: its stage function of the six arguments. -/
theorem s3_v32 (V : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F))
    (x3 : (⟨S128, .f32⟩ : BufTy).Contents (Elt F)) (x4 : (⟨S128x40, .f32⟩ : BufTy).Contents (Elt F)) (x5 : (⟨S40, .f32⟩ : BufTy).Contents (Elt F))
    (h18 : V (Proc.devRef .tc main_v18) = ReadP.val_main_v18 (F := F) x0 x1 x2 x3)
    (h1 : V (Proc.devRef .tc main_v1) = ReadP.val_main_v1 (F := F) x1)
    (h3 : V (Proc.devRef .tc main_v3) = ReadP.val_main_v3 (F := F) x1)
    (h4 : V (Proc.devRef .tc main_arg4) = x4) (h5 : V (Proc.devRef .tc main_arg5) = x5) :
    after (s3 (F := F)) V (Proc.devRef .tc main_v32) = ReadP.val_main_v32 (F := F) x0 x1 x2 x3 x4 x5 := by
  after_results_simp
  rw [h18, h1, h3, h4, h5]
  rfl

/-! ### Stretch 4: the row-wise log-softmax

The operations of this stretch carry transports between a buffer's own contents type and the tensor type its value
was declared at. At a literal buffer both types are the same, so each transport is the identity; the lemmas below say
so for an arbitrary value, and are used as rewrite rules: the row reductions range over four million positions and must
never be unfolded to compare a transported reduction with a bare one. (Each is stated through transitivity so that it
is applied as a propositional rewrite and not as a definitional unfolding.) -/

theorem toBuf_main_call1_cst (p₁ p₂ p₃) (v : (⟨S_, .f32⟩ : BufTy).Contents (Elt F)) :
    (TRef.of (sig := sig) (T := ⟨S_, .f32⟩) main_call1_cst p₁ p₂ p₃).toBuf (Val := Elt F) v = v := Eq.trans rfl rfl
theorem toBuf_main_call1_v0 (p₁ p₂ p₃) (v : (⟨S100000, .f32⟩ : BufTy).Contents (Elt F)) :
    (TRef.of (sig := sig) (T := ⟨S100000, .f32⟩) main_call1_v0 p₁ p₂ p₃).toBuf (Val := Elt F) v = v := Eq.trans rfl rfl
theorem toBuf_main_call1_cst_0 (p₁ p₂ p₃) (v : (⟨S_, .f32⟩ : BufTy).Contents (Elt F)) :
    (TRef.of (sig := sig) (T := ⟨S_, .f32⟩) main_call1_cst_0 p₁ p₂ p₃).toBuf (Val := Elt F) v = v := Eq.trans rfl rfl
theorem toBuf_main_call1_v1 (p₁ p₂ p₃) (v : (⟨S100000, .f32⟩ : BufTy).Contents (Elt F)) :
    (TRef.of (sig := sig) (T := ⟨S100000, .f32⟩) main_call1_v1 p₁ p₂ p₃).toBuf (Val := Elt F) v = v := Eq.trans rfl rfl
theorem toBuf_main_call1_v2 (p₁ p₂ p₃) (v : (⟨S100000, .f32⟩ : BufTy).Contents (Elt F)) :
    (TRef.of (sig := sig) (T := ⟨S100000, .f32⟩) main_call1_v2 p₁ p₂ p₃).toBuf (Val := Elt F) v = v := Eq.trans rfl rfl
theorem toBuf_main_call1_v3 (p₁ p₂ p₃) (v : (⟨S100000x1, .f32⟩ : BufTy).Contents (Elt F)) :
    (TRef.of (sig := sig) (T := ⟨S100000x1, .f32⟩) main_call1_v3 p₁ p₂ p₃).toBuf (Val := Elt F) v = v := Eq.trans rfl rfl
theorem toBuf_main_call1_v4 (p₁ p₂ p₃) (v : (⟨S100000x40, .f32⟩ : BufTy).Contents (Elt F)) :
    (TRef.of (sig := sig) (T := ⟨S100000x40, .f32⟩) main_call1_v4 p₁ p₂ p₃).toBuf (Val := Elt F) v = v := Eq.trans rfl rfl
theorem toBuf_main_call1_v5 (p₁ p₂ p₃) (v : (⟨S100000x40, .f32⟩ : BufTy).Contents (Elt F)) :
    (TRef.of (sig := sig) (T := ⟨S100000x40, .f32⟩) main_call1_v5 p₁ p₂ p₃).toBuf (Val := Elt F) v = v := Eq.trans rfl rfl
theorem toBuf_main_call1_v6 (p₁ p₂ p₃) (v : (⟨S100000x40, .f32⟩ : BufTy).Contents (Elt F)) :
    (TRef.of (sig := sig) (T := ⟨S100000x40, .f32⟩) main_call1_v6 p₁ p₂ p₃).toBuf (Val := Elt F) v = v := Eq.trans rfl rfl
theorem toBuf_main_call1_cst_1 (p₁ p₂ p₃) (v : (⟨S_, .f32⟩ : BufTy).Contents (Elt F)) :
    (TRef.of (sig := sig) (T := ⟨S_, .f32⟩) main_call1_cst_1 p₁ p₂ p₃).toBuf (Val := Elt F) v = v := Eq.trans rfl rfl
theorem toBuf_main_call1_v7 (p₁ p₂ p₃) (v : (⟨S100000, .f32⟩ : BufTy).Contents (Elt F)) :
    (TRef.of (sig := sig) (T := ⟨S100000, .f32⟩) main_call1_v7 p₁ p₂ p₃).toBuf (Val := Elt F) v = v := Eq.trans rfl rfl
theorem toBuf_main_call1_v8 (p₁ p₂ p₃) (v : (⟨S100000x1, .f32⟩ : BufTy).Contents (Elt F)) :
    (TRef.of (sig := sig) (T := ⟨S100000x1, .f32⟩) main_call1_v8 p₁ p₂ p₃).toBuf (Val := Elt F) v = v := Eq.trans rfl rfl
theorem toBuf_main_call1_v9 (p₁ p₂ p₃) (v : (⟨S100000x1, .f32⟩ : BufTy).Contents (Elt F)) :
    (TRef.of (sig := sig) (T := ⟨S100000x1, .f32⟩) main_call1_v9 p₁ p₂ p₃).toBuf (Val := Elt F) v = v := Eq.trans rfl rfl
theorem toBuf_main_call1_v10 (p₁ p₂ p₃) (v : (⟨S100000x40, .f32⟩ : BufTy).Contents (Elt F)) :
    (TRef.of (sig := sig) (T := ⟨S100000x40, .f32⟩) main_call1_v10 p₁ p₂ p₃).toBuf (Val := Elt F) v = v := Eq.trans rfl rfl
theorem toBuf_main_v33 (p₁ p₂ p₃) (v : (⟨S100000x40, .f32⟩ : BufTy).Contents (Elt F)) :
    (TRef.of (sig := sig) (T := ⟨S100000x40, .f32⟩) main_v33 p₁ p₂ p₃).toBuf (Val := Elt F) v = v := Eq.trans rfl rfl
theorem ofBuf_main_v32 (p₁ p₂ p₃) (v : (⟨S100000x40, .f32⟩ : BufTy).Contents (Elt F)) :
    (TRef.of (sig := sig) (T := ⟨S100000x40, .f32⟩) main_v32 p₁ p₂ p₃).ofBuf (Val := Elt F) v = v := Eq.trans rfl rfl
theorem ofBuf_main_call1_cst (p₁ p₂ p₃) (v : (⟨S_, .f32⟩ : BufTy).Contents (Elt F)) :
    (TRef.of (sig := sig) (T := ⟨S_, .f32⟩) main_call1_cst p₁ p₂ p₃).ofBuf (Val := Elt F) v = v := Eq.trans rfl rfl
theorem ofBuf_main_call1_cst_0 (p₁ p₂ p₃) (v : (⟨S_, .f32⟩ : BufTy).Contents (Elt F)) :
    (TRef.of (sig := sig) (T := ⟨S_, .f32⟩) main_call1_cst_0 p₁ p₂ p₃).ofBuf (Val := Elt F) v = v := Eq.trans rfl rfl
theorem ofBuf_main_call1_v1 (p₁ p₂ p₃) (v : (⟨S100000, .f32⟩ : BufTy).Contents (Elt F)) :
    (TRef.of (sig := sig) (T := ⟨S100000, .f32⟩) main_call1_v1 p₁ p₂ p₃).ofBuf (Val := Elt F) v = v := Eq.trans rfl rfl
theorem ofBuf_main_call1_v0 (p₁ p₂ p₃) (v : (⟨S100000, .f32⟩ : BufTy).Contents (Elt F)) :
    (TRef.of (sig := sig) (T := ⟨S100000, .f32⟩) main_call1_v0 p₁ p₂ p₃).ofBuf (Val := Elt F) v = v := Eq.trans rfl rfl
theorem ofBuf_main_call1_v2 (p₁ p₂ p₃) (v : (⟨S100000, .f32⟩ : BufTy).Contents (Elt F)) :
    (TRef.of (sig := sig) (T := ⟨S100000, .f32⟩) main_call1_v2 p₁ p₂ p₃).ofBuf (Val := Elt F) v = v := Eq.trans rfl rfl
theorem ofBuf_main_call1_v3 (p₁ p₂ p₃) (v : (⟨S100000x1, .f32⟩ : BufTy).Contents (Elt F)) :
    (TRef.of (sig := sig) (T := ⟨S100000x1, .f32⟩) main_call1_v3 p₁ p₂ p₃).ofBuf (Val := Elt F) v = v := Eq.trans rfl rfl
theorem ofBuf_main_call1_v4 (p₁ p₂ p₃) (v : (⟨S100000x40, .f32⟩ : BufTy).Contents (Elt F)) :
    (TRef.of (sig := sig) (T := ⟨S100000x40, .f32⟩) main_call1_v4 p₁ p₂ p₃).ofBuf (Val := Elt F) v = v := Eq.trans rfl rfl
theorem ofBuf_main_call1_v5 (p₁ p₂ p₃) (v : (⟨S100000x40, .f32⟩ : BufTy).Contents (Elt F)) :
    (TRef.of (sig := sig) (T := ⟨S100000x40, .f32⟩) main_call1_v5 p₁ p₂ p₃).ofBuf (Val := Elt F) v = v := Eq.trans rfl rfl
theorem ofBuf_main_call1_v6 (p₁ p₂ p₃) (v : (⟨S100000x40, .f32⟩ : BufTy).Contents (Elt F)) :
    (TRef.of (sig := sig) (T := ⟨S100000x40, .f32⟩) main_call1_v6 p₁ p₂ p₃).ofBuf (Val := Elt F) v = v := Eq.trans rfl rfl
theorem ofBuf_main_call1_cst_1 (p₁ p₂ p₃) (v : (⟨S_, .f32⟩ : BufTy).Contents (Elt F)) :
    (TRef.of (sig := sig) (T := ⟨S_, .f32⟩) main_call1_cst_1 p₁ p₂ p₃).ofBuf (Val := Elt F) v = v := Eq.trans rfl rfl
theorem ofBuf_main_call1_v7 (p₁ p₂ p₃) (v : (⟨S100000, .f32⟩ : BufTy).Contents (Elt F)) :
    (TRef.of (sig := sig) (T := ⟨S100000, .f32⟩) main_call1_v7 p₁ p₂ p₃).ofBuf (Val := Elt F) v = v := Eq.trans rfl rfl
theorem ofBuf_main_call1_v8 (p₁ p₂ p₃) (v : (⟨S100000x1, .f32⟩ : BufTy).Contents (Elt F)) :
    (TRef.of (sig := sig) (T := ⟨S100000x1, .f32⟩) main_call1_v8 p₁ p₂ p₃).ofBuf (Val := Elt F) v = v := Eq.trans rfl rfl
theorem ofBuf_main_call1_v9 (p₁ p₂ p₃) (v : (⟨S100000x1, .f32⟩ : BufTy).Contents (Elt F)) :
    (TRef.of (sig := sig) (T := ⟨S100000x1, .f32⟩) main_call1_v9 p₁ p₂ p₃).ofBuf (Val := Elt F) v = v := Eq.trans rfl rfl
theorem ofBuf_main_call1_v10 (p₁ p₂ p₃) (v : (⟨S100000x40, .f32⟩ : BufTy).Contents (Elt F)) :
    (TRef.of (sig := sig) (T := ⟨S100000x40, .f32⟩) main_call1_v10 p₁ p₂ p₃).ofBuf (Val := Elt F) v = v := Eq.trans rfl rfl

/-- From a buffer holding the second layer's pre-activation, the fifteen operations of the log-softmax leave the
    result: the last stage function. The pre-activation stays an opaque term here — it occurs three times. -/
theorem s4_v33 (V : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F))
    (x3 : (⟨S128, .f32⟩ : BufTy).Contents (Elt F)) (x4 : (⟨S128x40, .f32⟩ : BufTy).Contents (Elt F)) (x5 : (⟨S40, .f32⟩ : BufTy).Contents (Elt F))
    (h32 : V (Proc.devRef .tc main_v32) = ReadP.val_main_v32 (F := F) x0 x1 x2 x3 x4 x5) :
    after (s4 (F := F)) V (Proc.devRef .tc main_v33) = ReadP.val_main_v33 (F := F) x0 x1 x2 x3 x4 x5 := by
  after_results_simp
  rw [h32]
  simp only [toBuf_main_call1_cst, toBuf_main_call1_v0, toBuf_main_call1_cst_0, toBuf_main_call1_v1, toBuf_main_call1_v2, toBuf_main_call1_v3, toBuf_main_call1_v4, toBuf_main_call1_v5, toBuf_main_call1_v6, toBuf_main_call1_cst_1, toBuf_main_call1_v7, toBuf_main_call1_v8, toBuf_main_call1_v9, toBuf_main_call1_v10, toBuf_main_v33, ofBuf_main_v32, ofBuf_main_call1_cst, ofBuf_main_call1_cst_0, ofBuf_main_call1_v1, ofBuf_main_call1_v0, ofBuf_main_call1_v2, ofBuf_main_call1_v3, ofBuf_main_call1_v4, ofBuf_main_call1_v5, ofBuf_main_call1_v6, ofBuf_main_call1_cst_1, ofBuf_main_call1_v7, ofBuf_main_call1_v8, ofBuf_main_call1_v9, ofBuf_main_call1_v10]
  simp only [ReadP.val_main_v33, ReadP.val_main_call1_v10, ReadP.val_main_call1_v9, ReadP.val_main_call1_v8, ReadP.val_main_call1_v7, ReadP.val_main_call1_cst_1, ReadP.val_main_call1_v6, ReadP.val_main_call1_v5, ReadP.val_main_call1_v4, ReadP.val_main_call1_v3, ReadP.val_main_call1_v2, ReadP.val_main_call1_v1, ReadP.val_main_call1_cst_0, ReadP.val_main_call1_v0, ReadP.val_main_call1_cst]

/-! ### The whole list -/

/-- No operation writes an argument buffer. -/
theorem ops_arg0 (V : Valuation τ sig (Elt F)) :
    after (ValueP.ops (F := F)) V (Proc.devRef .tc main_arg0) = V (Proc.devRef .tc main_arg0) := by
  after_results_simp <;> rfl
theorem ops_arg1 (V : Valuation τ sig (Elt F)) :
    after (ValueP.ops (F := F)) V (Proc.devRef .tc main_arg1) = V (Proc.devRef .tc main_arg1) := by
  after_results_simp <;> rfl
theorem ops_arg2 (V : Valuation τ sig (Elt F)) :
    after (ValueP.ops (F := F)) V (Proc.devRef .tc main_arg2) = V (Proc.devRef .tc main_arg2) := by
  after_results_simp <;> rfl
theorem ops_arg3 (V : Valuation τ sig (Elt F)) :
    after (ValueP.ops (F := F)) V (Proc.devRef .tc main_arg3) = V (Proc.devRef .tc main_arg3) := by
  after_results_simp <;> rfl
theorem ops_arg4 (V : Valuation τ sig (Elt F)) :
    after (ValueP.ops (F := F)) V (Proc.devRef .tc main_arg4) = V (Proc.devRef .tc main_arg4) := by
  after_results_simp <;> rfl
theorem ops_arg5 (V : Valuation τ sig (Elt F)) :
    after (ValueP.ops (F := F)) V (Proc.devRef .tc main_arg5) = V (Proc.devRef .tc main_arg5) := by
  after_results_simp <;> rfl

/-- After all 56 operations the result buffer holds the last stage function of the six argument buffers' contents:
    the four stretches chained, each reading what the earlier ones left. -/
theorem ops_v33 (V : Valuation τ sig (Elt F)) :
    after (ValueP.ops (F := F)) V (Proc.devRef .tc main_v33)
      = ReadP.val_main_v33 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_eq, after_append, after_append, after_append]
  refine s4_v33 _ _ _ _ _ _ _ (s3_v32 _ _ _ _ _ _ _ (s2_v18 _ _ _ _ _ (s1_v17 V)) ?_ ?_ ?_ ?_)
  · rw [s2_v1, s1_v1]
  · rw [s2_v3, s1_v3]
  · rw [s2_arg4, s1_arg4]
  · rw [s2_arg5, s1_arg5]

/-- On every device, from any memory with zero counters, every weakly fair execution of the reference terminates with
    its result buffer at the last stage function of the six argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33) = Cert.ReferenceIdeal.ReadP.val_main_v33 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_v33).trans (ops_v33 (launchContents m c)),
     (h c main_arg0).trans (ops_arg0 (launchContents m c)),
     (h c main_arg1).trans (ops_arg1 (launchContents m c)),
     (h c main_arg2).trans (ops_arg2 (launchContents m c)),
     (h c main_arg3).trans (ops_arg3 (launchContents m c)),
     (h c main_arg4).trans (ops_arg4 (launchContents m c)),
     (h c main_arg5).trans (ops_arg5 (launchContents m c))⟩) (ValueP.run_after m ρ)

end Cert.ReferenceIdeal.RefValue

end
-- ==== Proof.lean ====
/-
  The certificate of a two-layer graph convolution: the idealized kernel and the idealized reference compute, over the
  extended reals, the same function of the features, the edge list, the two weight matrices and the two biases.

  Both programs are the same five stages. (1) The product of the features with the first weights: a pallas_call over ten
  blocks of 10000 rows in the kernel (operands narrowed to a shorter float format, which changes nothing over the
  extended reals; a matmul into a zero accumulator), one dot_general in the reference; entry by entry both are the sum
  over the shared index. (2) Aggregation along the edges: slice the edge list into sources and destinations, wrap negative
  sources, gather the table's rows at the sources, add them into a zero table at the destinations: the same host operations
  in both programs. (3) Bias, maximum with zero, product with the second weights: fused in the second pallas_call, three host
  steps in the reference; the same row-wise expression. (4) The same aggregation again. (5) Bias and the row-wise
  log-softmax (z - top) - log (sum of exp (z - top)), top the maximum of the row taken from minus infinity (the reference
  takes one more maximum with minus infinity, the identity): the third pallas_call against the reference's inlined
  log_softmax. No law that could fail at an infinity is used — the two sides are the same operations on the same operands in
  the same order — so the precondition that the inputs are finite is never opened.

  The kernel's run is the frame certificate's run, restated with the result buffer named (KernelRun), and its result read
  back stage by stage through the boundaries between host stretches and calls (ProductRegion, HiddenRegion,
  LogSoftmaxRegion, HostStretches, KernelValue); the reference's run is its list of host operations read back to its last
  stage (RefRun, RefValue); the stages themselves are the reference's operations one at a time (ReadP). The frames of
  the two kernel programs are the generated ones; the reference's frame is its run with the result dropped; nothing was
  rewritten when the kernel was idealized, so that conjunct is trivial.
-/
import proofs.«173222_j37512244363443_1_alg».proof.Defs
import proofs.«173222_j37512244363443_1_alg».proof.Proof.Gen.Kernel
import proofs.«173222_j37512244363443_1_alg».proof.Proof.Gen.Kernel.Skeleton
import proofs.«173222_j37512244363443_1_alg».proof.Proof.Gen.Kernel.Launch
import proofs.«173222_j37512244363443_1_alg».proof.Proof.Gen.Kernel.Points
import proofs.«173222_j37512244363443_1_alg».proof.Proof.Gen.Kernel.Frame
import proofs.«173222_j37512244363443_1_alg».proof.Proof.Gen.KernelIdeal
import proofs.«173222_j37512244363443_1_alg».proof.Proof.Gen.KernelIdeal.Skeleton
import proofs.«173222_j37512244363443_1_alg».proof.Proof.Gen.KernelIdeal.Launch
import proofs.«173222_j37512244363443_1_alg».proof.Proof.Gen.KernelIdeal.Points
import proofs.«173222_j37512244363443_1_alg».proof.Proof.Gen.KernelIdeal.Frame
import proofs.«173222_j37512244363443_1_alg».proof.Proof.Gen.ReferenceIdeal
import proofs.«173222_j37512244363443_1_alg».proof.Proof.Gen.Pre_finite_inputs
import proofs.«173222_j37512244363443_1_alg».proof.Proof.KernelRun
import proofs.«173222_j37512244363443_1_alg».proof.Proof.KernelValue
import proofs.«173222_j37512244363443_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : @Cert.frame_Kernel Cert.Kernel.Gen.facts Cert.Pre_finite_inputs.Gen.facts :=
  fun m ρ _ => Cert.Kernel.Gen.frame m ρ

/-- The idealized kernel runs and keeps its arguments: the generated frame. -/
theorem frame_ki : @Cert.frame_KernelIdeal Cert.KernelIdeal.Gen.facts Cert.Pre_finite_inputs.Gen.facts :=
  fun m ρ _ => Cert.KernelIdeal.Gen.frame m ρ

/-- The idealized reference runs and keeps its arguments: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefValue.run (F := Ideal) m ρ)

/-- From memories that agree on the six arguments both idealized programs end with the reference's last stage of those
    arguments in their result buffers. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.ReadP.val_main_v33 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.W6_v28 m ρ c), (h c).2⟩)
      (Cert.KernelIdeal.KernelRun.run_named (F := Ideal) m ρ)
  · refine (θ_run Cert.ReferenceIdeal.defs _ _).mono (fun _ h c => ⟨?_, (h c).2⟩)
      (Cert.ReferenceIdeal.RefValue.run (F := Ideal) m' ρ')
    obtain ⟨e0, e1, e2, e3, e4, e5⟩ := hagree c
    rw [(h c).1, e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
